-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x1024 : Shape := ⟨3, ![64, 1024, 1024]⟩
abbrev S64x1024 : Shape := ⟨2, ![64, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S_ : Shape := ⟨0, ![]⟩

class Facts : Prop where
  bcast_S_S64x1024x1024 : S_.BroadcastsInDim S64x1024x1024 (![] : Fin 0 → Fin S64x1024x1024.rank)
  reducesTo_S64x1024x1024_S_d0_1_2 : S64x1024x1024.ReducesTo [0, 1, 2] S_
  h_S_ : 0 < S_.numel
  bcast_S_S64x1024 : S_.BroadcastsInDim S64x1024 (![] : Fin 0 → Fin S64x1024.rank)
  reducesTo_S64x1024_S_d0_1 : S64x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x1 : S_.BroadcastsInDim S1024x1 (![] : Fin 0 → Fin S1024x1.rank)
  reducesTo_S1024x1_S_d0_1 : S1024x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S1024x1024 .f32) (main_arg5 : FVec F S1024 .f32) (main_arg6 : FVec F S1024x1 .f32) (main_arg7 : FVec F S1 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1 .f32 := Host.absf main_arg6
  let main_cst_10 : FVec F S_ .f32 := constant S_ .f32 0x7F800000#32
  let main_v30 : FVec F S1024x1 .f32 := broadcastInDim S1024x1 ![] bcast_S_S1024x1 main_cst_10
  let main_v31 : IVec S1024x1 1 := cmpf .olt main_v29 main_v30
  let main_c_11 : IVec S_ 1 := constantI S_ 1 1#1
  let main_v32 : IVec S_ 1 := (fun x v => Host.reduce IntOp.andi x v reducesTo_S1024x1_S_d0_1 h_S_) main_v31 main_c_11
  let main_v33 : IVec S_ 1 := andi main_v28 main_v32
  fn_part2 (F := F) main_arg7 main_v33

def fn {F : FTy → Type} [FloatOps F] (main_arg0 : FVec F S64x1024x1024 .f32) (main_arg1 : FVec F S64x1024 .f32) (main_arg2 : FVec F S1024x1024 .f32) (main_arg3 : FVec F S1024 .f32) (main_arg4 : FVec F S1024x1024 .f32) (main_arg5 : FVec F S1024 .f32) (main_arg6 : FVec F S1024x1 .f32) (main_arg7 : FVec F S1 .f32) : IVec S_ 1 :=
  let main_v0 : FVec F S64x1024x1024 .f32 := Host.absf main_arg0
  let main_cst : FVec F S_ .f32 := constant S_ .f32 0x7F800000#32
  let main_v1 : FVec F S64x1024x1024 .f32 := broadcastInDim S64x1024x1024 ![] bcast_S_S64x1024x1024 main_cst
  let main_v2 : IVec S64x1024x1024 1 := cmpf .olt main_v0 main_v1
  let main_c : IVec S_ 1 := constantI S_ 1 1#1
  let main_v3 : IVec S_ 1 := (fun x v => Host.reduce IntOp.andi x v reducesTo_S64x1024x1024_S_d0_1_2 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S64x1024x1024 : Shape := ⟨3, ![64, 1024, 1024]⟩
abbrev S64x1024 : Shape := ⟨2, ![64, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S1x1024 : Shape := ⟨2, ![1, 1024]⟩
abbrev S1x1 : Shape := ⟨2, ![1, 1]⟩
abbrev S64x1024x1 : Shape := ⟨3, ![64, 1024, 1]⟩
abbrev S8x128x1024 : Shape := ⟨3, ![8, 128, 1024]⟩
abbrev S8x1024 : Shape := ⟨2, ![8, 1024]⟩
abbrev S8x128x1 : Shape := ⟨3, ![8, 128, 1]⟩
abbrev S1x1x1024 : Shape := ⟨3, ![1, 1, 1024]⟩
abbrev S8x1x1024 : Shape := ⟨3, ![8, 1, 1024]⟩
abbrev S1x1x1 : Shape := ⟨3, ![1, 1, 1]⟩
abbrev S_ : Shape := ⟨0, ![]⟩
abbrev S64x1 : Shape := ⟨2, ![64, 1]⟩
abbrev S64x1x1 : Shape := ⟨3, ![64, 1, 1]⟩

abbrev nBuf : Space → Nat
  | .hbm => 32
  | .vmem => 17
  | .smem => 0
  | _ => 0

abbrev bufTy : (tb : Table) → Fin (tcTables nBuf tb) → BufTy
  | .hbm, ⟨0, _⟩ => ⟨S64x1024x1024, .f32⟩
  | .hbm, ⟨1, _⟩ => ⟨S64x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1, .f32⟩
  | .hbm, ⟨7, _⟩ => ⟨S1, .f32⟩
  | .hbm, ⟨8, _⟩ => ⟨S64x1024, .f32⟩
  | .hbm, ⟨9, _⟩ => ⟨S1x1024, .f32⟩
  | .hbm, ⟨10, _⟩ => ⟨S64x1024, .f32⟩
  | .hbm, ⟨11, _⟩ => ⟨S64x1024, .f32⟩
  | .hbm, ⟨12, _⟩ => ⟨S1024x1024, .bf16⟩
  | .hbm, ⟨13, _⟩ => ⟨S1024x1, .bf16⟩
  | .hbm, ⟨14, _⟩ => ⟨S1x1024, .f32⟩
  | .hbm, ⟨15, _⟩ => ⟨S1x1, .f32⟩
  | .hbm, ⟨16, _⟩ => ⟨S64x1024x1, .f32⟩
  | .hbm, ⟨17, _⟩ => ⟨S_, .f32⟩
  | .hbm, ⟨18, _⟩ => ⟨S64x1, .f32⟩
  | .hbm, ⟨19, _⟩ => ⟨S_, .f32⟩
  | .hbm, ⟨20, _⟩ => ⟨S64x1, .f32⟩
  | .hbm, ⟨21, _⟩ => ⟨S64x1, .f32⟩
  | .hbm, ⟨22, _⟩ => ⟨S64x1x1, .f32⟩
  | .hbm, ⟨23, _⟩ => ⟨S64x1024x1, .f32⟩
  | .hbm, ⟨24, _⟩ => ⟨S64x1024x1, .f32⟩
  | .hbm, ⟨25, _⟩ => ⟨S64x1024x1, .f32⟩
  | .hbm, ⟨26, _⟩ => ⟨S_, .f32⟩
  | .hbm, ⟨27, _⟩ => ⟨S64x1, .f32⟩
  | .hbm, ⟨28, _⟩ => ⟨S64x1x1, .f32⟩
  | .hbm, ⟨29, _⟩ => ⟨S64x1024x1, .f32⟩
  | .hbm, ⟨30, _⟩ => ⟨S64x1024x1, .f32⟩
  | .hbm, ⟨31, _⟩ => ⟨S64x1024, .f32⟩
  | .local _ .vmem, ⟨0, _⟩ => ⟨S8x128x1024, .f32⟩
  | .local _ .vmem, ⟨1, _⟩ => ⟨S8x128x1024, .f32⟩
  | .local _ .vmem, ⟨2, _⟩ => ⟨S8x1024, .f32⟩
  | .local _ .vmem, ⟨3, _⟩ => ⟨S8x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1, .bf16⟩
  | .local _ .vmem, ⟨7, _⟩ => ⟨S1x1, .f32⟩
  | .local _ .vmem, ⟨8, _⟩ => ⟨S8x128x1, .f32⟩
  | .local _ .vmem, ⟨9, _⟩ => ⟨S8x128x1, .f32⟩
  | .local _ .vmem, ⟨10, _⟩ => ⟨S8x128x1024, .f32⟩
  | .local _ .vmem, ⟨11, _⟩ => ⟨S8x128x1024, .f32⟩
  | .local _ .vmem, ⟨12, _⟩ => ⟨S8x128x1, .f32⟩
  | .local _ .vmem, ⟨13, _⟩ => ⟨S8x128x1, .f32⟩
  | .local _ .vmem, ⟨14, _⟩ => ⟨S8x1024, .f32⟩
  | .local _ .vmem, ⟨15, _⟩ => ⟨S8x1024, .f32⟩
  | .local _ .vmem, ⟨16, _⟩ => ⟨S8x1024, .f32⟩
  | _, _ => ⟨S64x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S8x128x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_10 : BitVec 32 := 0#32
  let v16 : BitVec 1 := Scalar.cmpi .ne v15 c0_i32_10
  v16

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S8x128x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x128x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S8x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  bcast_S1024_S1x1024_1 : S1024.BroadcastsInDim S1x1024 (![1] : Fin 1 → Fin S1x1024.rank)
  bcast_S1x1024_S64x1024_0_1 : S1x1024.BroadcastsInDim S64x1024 (![0, 1] : Fin 2 → Fin S64x1024.rank)
  bitsLt_bf16_f32 : FTy.bits .bf16 < FTy.bits .f32
  shapeCasts_S1024_S1x1024 : S1024.ShapeCasts S1x1024
  shapeCasts_S1_S1x1 : S1.ShapeCasts S1x1
  inb_S8x128x1024_S8x128x1024_0_0_0 : ∀ a, (![0, 0, 0] : Fin 3 → Nat) a + S8x128x1024.size a ≤ S8x128x1024.size a
  h_S8x128x1024 : 0 < S8x128x1024.numel
  shapeCasts_S8x128x1024_S1024x1024 : S8x128x1024.ShapeCasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S1024x1024_S8x128x1024 : S1024x1024.ShapeCasts S8x128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  shapeCasts_S1x1024_S1x1x1024 : S1x1024.ShapeCasts S1x1x1024
  broadcasts_S1x1x1024_S8x128x1024 : S1x1x1024.Broadcasts S8x128x1024
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  shapeCasts_S8x1024_S8x1x1024 : S8x1024.ShapeCasts S8x1x1024
  broadcasts_S8x1x1024_S8x128x1024 : S8x1x1024.Broadcasts S8x128x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S1024x1_S8x128x1 : S1024x1.ShapeCasts S8x128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S1x1x1 : S1x1.ShapeCasts S1x1x1
  broadcasts_S1x1x1_S8x128x1 : S1x1x1.Broadcasts S8x128x1
  inb_S8x128x1_S8x128x1_0_0_0 : ∀ a, (![0, 0, 0] : Fin 3 → Nat) a + S8x128x1.size a ≤ S8x128x1.size a
  h_S8x128x1 : 0 < S8x128x1.numel
  reducesTo_S64x1024x1_S64x1_d1 : S64x1024x1.ReducesTo [1] S64x1
  h_S_ : 0 < S_.numel
  bcast_S_S64x1 : S_.BroadcastsInDim S64x1 (![] : Fin 0 → Fin S64x1.rank)
  bcast_S64x1_S64x1x1_0_2 : S64x1.BroadcastsInDim S64x1x1 (![0, 2] : Fin 2 → Fin S64x1x1.rank)
  bcast_S64x1x1_S64x1024x1_0_1_2 : S64x1x1.BroadcastsInDim S64x1024x1 (![0, 1, 2] : Fin 3 → Fin S64x1024x1.rank)
  shapeCasts_S8x128x1_S8x128x1 : S8x128x1.ShapeCasts S8x128x1
  broadcasts_S8x128x1_S8x128x1024 : S8x128x1.Broadcasts S8x128x1024
  reduces_S8x128x1024_S8x1024 : S8x128x1024.Reduces [1] S8x1024
  dot_S64x1024_S1024x1024_S64x1024_1_0_0_1_n_n_wf : DotDims.WF S64x1024 S1024x1024 S64x1024 [1] [0] [0] [1] [] []
  dot_S1024x1024_S1024x1024_S1024x1024_1_0_0_1_n_n_wf : DotDims.WF S1024x1024 S1024x1024 S1024x1024 [1] [0] [0] [1] [] []
  dot_S1024x1024_S1024x1_S1024x1_1_0_0_1_n_n_wf : DotDims.WF S1024x1024 S1024x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x1024.size a ≤ S64x1024x1024.size a
  hwx0_0 : ∀ i : grid0.Coords, EltTy.bits .f32 = 32 ∨ (Rect.block (s := S64x1024x1024) S8x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1024.size a ≤ S64x1024.size a
  hwx0_1 : ∀ i : grid0.Coords, EltTy.bits .f32 = 32 ∨ (Rect.block (s := S64x1024) S8x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S1024x1.size a
  hwx0_4 : ∀ i : grid0.Coords, EltTy.bits .bf16 = 32 ∨ (Rect.block (s := S1024x1) S1024x1.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x128x1.size a ≤ S64x1024x1.size a
  hwx0_6 : ∀ i : grid0.Coords, EltTy.bits .f32 = 32 ∨ (Rect.block (s := S64x1024x1) S8x128x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x128x1024.size a ≤ S64x1024x1024.size a
  hwx1_0 : ∀ i : grid1.Coords, EltTy.bits .f32 = 32 ∨ (Rect.block (s := S64x1024x1024) S8x128x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x128x1.size a ≤ S64x1024x1.size a
  hwx1_1 : ∀ i : grid1.Coords, EltTy.bits .f32 = 32 ∨ (Rect.block (s := S64x1024x1) S8x128x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x1024.size a ≤ S64x1024.size a
  hwx1_2 : ∀ i : grid1.Coords, EltTy.bits .f32 = 32 ∨ (Rect.block (s := S64x1024) S8x1024.size (cc1_transform_2 i) (hinb1_2 i)).WholeWords (EltTy.packing .f32)

variable [Facts₀]

def dot_S64x1024_S1024x1024_S64x1024_1_0_0_1_n_n : DotDims S64x1024 S1024x1024 S64x1024 where
  lhsContracting := [1]
  rhsContracting := [0]
  lhsNonContracting := [0]
  rhsNonContracting := [1]
  lhsBatch := []
  rhsBatch := []
  wf := dot_S64x1024_S1024x1024_S64x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x1_S1024x1_1_0_0_1_n_n : DotDims S1024x1024 S1024x1 S1024x1 where
  lhsContracting := [1]
  rhsContracting := [0]
  lhsNonContracting := [0]
  rhsNonContracting := [1]
  lhsBatch := []
  rhsBatch := []
  wf := dot_S1024x1024_S1024x1_S1024x1_1_0_0_1_n_n_wf

abbrev win0_0 : Pipeline.Window sig grid0 :=
  Pipeline.Window.ofSpec (Memref.whole main_arg0) S8x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S8x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S8x128x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S8x128x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S8x128x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S8x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S64x1024x1024 : Shape := ⟨3, ![64, 1024, 1024]⟩
abbrev S64x1024 : Shape := ⟨2, ![64, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S1x1x1024 : Shape := ⟨3, ![1, 1, 1024]⟩
abbrev S1x1024 : Shape := ⟨2, ![1, 1024]⟩
abbrev S64x1x1024 : Shape := ⟨3, ![64, 1, 1024]⟩
abbrev S64x1024x1 : Shape := ⟨3, ![64, 1024, 1]⟩
abbrev S1x1x1 : Shape := ⟨3, ![1, 1, 1]⟩
abbrev S_ : Shape := ⟨0, ![]⟩
abbrev S64x1 : Shape := ⟨2, ![64, 1]⟩
abbrev S64x1x1 : Shape := ⟨3, ![64, 1, 1]⟩

abbrev nBuf : Space → Nat
  | .hbm => 42
  | .vmem => 0
  | .smem => 0
  | _ => 0

abbrev bufTy : (tb : Table) → Fin (tcTables nBuf tb) → BufTy
  | .hbm, ⟨0, _⟩ => ⟨S64x1024x1024, .f32⟩
  | .hbm, ⟨1, _⟩ => ⟨S64x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1, .f32⟩
  | .hbm, ⟨7, _⟩ => ⟨S1, .f32⟩
  | .hbm, ⟨8, _⟩ => ⟨S64x1024x1024, .f32⟩
  | .hbm, ⟨9, _⟩ => ⟨S1x1x1024, .f32⟩
  | .hbm, ⟨10, _⟩ => ⟨S64x1024x1024, .f32⟩
  | .hbm, ⟨11, _⟩ => ⟨S64x1024x1024, .f32⟩
  | .hbm, ⟨12, _⟩ => ⟨S64x1024, .f32⟩
  | .hbm, ⟨13, _⟩ => ⟨S1x1024, .f32⟩
  | .hbm, ⟨14, _⟩ => ⟨S64x1024, .f32⟩
  | .hbm, ⟨15, _⟩ => ⟨S64x1024, .f32⟩
  | .hbm, ⟨16, _⟩ => ⟨S64x1x1024, .f32⟩
  | .hbm, ⟨17, _⟩ => ⟨S64x1024x1024, .f32⟩
  | .hbm, ⟨18, _⟩ => ⟨S64x1024x1024, .f32⟩
  | .hbm, ⟨19, _⟩ => ⟨S64x1024x1024, .f32⟩
  | .hbm, ⟨20, _⟩ => ⟨S64x1024x1, .f32⟩
  | .hbm, ⟨21, _⟩ => ⟨S1x1x1, .f32⟩
  | .hbm, ⟨22, _⟩ => ⟨S64x1024x1, .f32⟩
  | .hbm, ⟨23, _⟩ => ⟨S64x1024x1, .f32⟩
  | .hbm, ⟨24, _⟩ => ⟨S_, .f32⟩
  | .hbm, ⟨25, _⟩ => ⟨S64x1, .f32⟩
  | .hbm, ⟨26, _⟩ => ⟨S_, .f32⟩
  | .hbm, ⟨27, _⟩ => ⟨S64x1, .f32⟩
  | .hbm, ⟨28, _⟩ => ⟨S64x1, .f32⟩
  | .hbm, ⟨29, _⟩ => ⟨S64x1x1, .f32⟩
  | .hbm, ⟨30, _⟩ => ⟨S64x1024x1, .f32⟩
  | .hbm, ⟨31, _⟩ => ⟨S64x1024x1, .f32⟩
  | .hbm, ⟨32, _⟩ => ⟨S64x1024x1, .f32⟩
  | .hbm, ⟨33, _⟩ => ⟨S_, .f32⟩
  | .hbm, ⟨34, _⟩ => ⟨S64x1, .f32⟩
  | .hbm, ⟨35, _⟩ => ⟨S64x1x1, .f32⟩
  | .hbm, ⟨36, _⟩ => ⟨S64x1024x1, .f32⟩
  | .hbm, ⟨37, _⟩ => ⟨S64x1024x1, .f32⟩
  | .hbm, ⟨38, _⟩ => ⟨S64x1024x1024, .f32⟩
  | .hbm, ⟨39, _⟩ => ⟨S64x1024x1024, .f32⟩
  | .hbm, ⟨40, _⟩ => ⟨S_, .f32⟩
  | .hbm, ⟨41, _⟩ => ⟨S64x1024, .f32⟩
  | _, _ => ⟨S64x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S64x1024x1024_0_1_2 : S1x1x1024.BroadcastsInDim S64x1024x1024 (![0, 1, 2] : Fin 3 → Fin S64x1024x1024.rank)
  bcast_S1024_S1x1024_1 : S1024.BroadcastsInDim S1x1024 (![1] : Fin 1 → Fin S1x1024.rank)
  bcast_S1x1024_S64x1024_0_1 : S1x1024.BroadcastsInDim S64x1024 (![0, 1] : Fin 2 → Fin S64x1024.rank)
  bcast_S64x1024_S64x1x1024_0_2 : S64x1024.BroadcastsInDim S64x1x1024 (![0, 2] : Fin 2 → Fin S64x1x1024.rank)
  bcast_S64x1x1024_S64x1024x1024_0_1_2 : S64x1x1024.BroadcastsInDim S64x1024x1024 (![0, 1, 2] : Fin 3 → Fin S64x1024x1024.rank)
  bcast_S1_S1x1x1_2 : S1.BroadcastsInDim S1x1x1 (![2] : Fin 1 → Fin S1x1x1.rank)
  bcast_S1x1x1_S64x1024x1_0_1_2 : S1x1x1.BroadcastsInDim S64x1024x1 (![0, 1, 2] : Fin 3 → Fin S64x1024x1.rank)
  reducesTo_S64x1024x1_S64x1_d1 : S64x1024x1.ReducesTo [1] S64x1
  h_S_ : 0 < S_.numel
  bcast_S_S64x1 : S_.BroadcastsInDim S64x1 (![] : Fin 0 → Fin S64x1.rank)
  bcast_S64x1_S64x1x1_0_2 : S64x1.BroadcastsInDim S64x1x1 (![0, 2] : Fin 2 → Fin S64x1x1.rank)
  bcast_S64x1x1_S64x1024x1_0_1_2 : S64x1x1.BroadcastsInDim S64x1024x1 (![0, 1, 2] : Fin 3 → Fin S64x1024x1.rank)
  bcast_S64x1024x1_S64x1024x1024_0_1_2 : S64x1024x1.BroadcastsInDim S64x1024x1024 (![0, 1, 2] : Fin 3 → Fin S64x1024x1024.rank)
  reducesTo_S64x1024x1024_S64x1024_d1 : S64x1024x1024.ReducesTo [1] S64x1024
  dot_S64x1024x1024_S1024x1024_S64x1024x1024_2_0_01_1_n_n_wf : DotDims.WF S64x1024x1024 S1024x1024 S64x1024x1024 [2] [0] [0, 1] [1] [] []
  dot_S64x1024_S1024x1024_S64x1024_1_0_0_1_n_n_wf : DotDims.WF S64x1024 S1024x1024 S64x1024 [1] [0] [0] [1] [] []
  dot_S64x1024x1024_S1024x1_S64x1024x1_2_0_01_1_n_n_wf : DotDims.WF S64x1024x1024 S1024x1 S64x1024x1 [2] [0] [0, 1] [1] [] []

variable [Facts₀]

def dot_S64x1024x1024_S1024x1024_S64x1024x1024_2_0_01_1_n_n : DotDims S64x1024x1024 S1024x1024 S64x1024x1024 where
  lhsContracting := [2]
  rhsContracting := [0]
  lhsNonContracting := [0, 1]
  rhsNonContracting := [1]
  lhsBatch := []
  rhsBatch := []
  wf := dot_S64x1024x1024_S1024x1024_S64x1024x1024_2_0_01_1_n_n_wf
def dot_S64x1024_S1024x1024_S64x1024_1_0_0_1_n_n : DotDims S64x1024 S1024x1024 S64x1024 where
  lhsContracting := [1]
  rhsContracting := [0]
  lhsNonContracting := [0]
  rhsNonContracting := [1]
  lhsBatch := []
  rhsBatch := []
  wf := dot_S64x1024_S1024x1024_S64x1024_1_0_0_1_n_n_wf
def dot_S64x1024x1024_S1024x1_S64x1024x1_2_0_01_1_n_n : DotDims S64x1024x1024 S1024x1 S64x1024x1 where
  lhsContracting := [2]
  rhsContracting := [0]
  lhsNonContracting := [0, 1]
  rhsNonContracting := [1]
  lhsBatch := []
  rhsBatch := []
  wf := dot_S64x1024x1024_S1024x1_S64x1024x1_2_0_01_1_n_n_wf

class Facts : Prop extends Facts₀ where

variable [Facts]
-- ==== Proof.BitsLogits.lean ====
/-
  The first launch, point by point. The grid is 8 x 8; at point (bi, li) the body sees rows [8 bi, 8 bi + 8) and
  positions [128 li, 128 li + 128) of the features, the matching 8 rows of the hidden projection, and the two weight
  matrices and two biases whole. It stores ONE block of logits, a function of those six blocks alone, and keeps nothing
  from point to point: so what the output window holds after the body is named here as a function of the six input
  blocks, the body is shown to leave exactly that (and every input block as found), and the per-point obligation of the
  launch follows. Everything is stated at ANY contents V of the device's buffers at the moment the launch is entered,
  and for any interpretation F of the floating-point operations.
-/
import proofs.«118650_j25967372271699_1_alg».proof.Proof.Gen.Kernel.Launch
import proofs.«118650_j25967372271699_1_alg».proof.Proof.Gen.Kernel.Skeleton
import proofs.«118650_j25967372271699_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The blocks -/

/-- Window `w`'s block at point `t`: the rectangle of its array the index map names there, read off `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 holds its block at every point, whether the point fetched it or found it from the point before
    (then the block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 holds its block at every point, whether the point fetched it or found it from the point before
    (then the block index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 holds its block at every point, whether the point fetched it or found it from the point before
    (then the block index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3 holds its block at every point, whether the point fetched it or found it from the point before
    (then the block index has not moved). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4 holds its block at every point, whether the point fetched it or found it from the point before
    (then the block index has not moved). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5 holds its block at every point, whether the point fetched it or found it from the point before
    (then the block index has not moved). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## What the body reads and writes -/

abbrev rin0_0 : Rect S8x128x1024 := Rect.unit (s := S8x128x1024) ![0, 0, 0] S8x128x1024.size inb_S8x128x1024_S8x128x1024_0_0_0
abbrev rin0_1 : Rect S8x1024 := Rect.unit (s := S8x1024) ![0, 0] S8x1024.size inb_S8x1024_S8x1024_0_0
abbrev rin0_2 : Rect S1024x1024 := Rect.unit (s := S1024x1024) ![0, 0] S1024x1024.size inb_S1024x1024_S1024x1024_0_0
abbrev rin0_3 : Rect S1x1024 := Rect.unit (s := S1x1024) ![0, 0] S1x1024.size inb_S1x1024_S1x1024_0_0
abbrev rin0_4 : Rect S1024x1 := Rect.unit (s := S1024x1) ![0, 0] S1024x1.size inb_S1024x1_S1024x1_0_0
abbrev rin0_5 : Rect S1x1 := Rect.unit (s := S1x1) ![0, 0] S1x1.size inb_S1x1_S1x1_0_0
abbrev rout0 : Rect S8x128x1 := Rect.unit (s := S8x128x1) ![0, 0, 0] S8x128x1.size inb_S8x128x1_S8x128x1_0_0_0

/-- The logits block the body stores, from the six input blocks: its one store, whole. -/
def out0_6 (x0 : Vec F S8x128x1024 .f32) (x1 : Vec F S8x1024 .f32) (x2 : Vec F S1024x1024 .bf16) (x3 : Vec F S1x1024 .f32)
    (x4 : Vec F S1024x1 .bf16) (x5 : Vec F S1x1 .f32) : Vec F S8x128x1 .f32 :=
  View.canon [⟨rout0, k0_pay1 (View.ld x0 rin0_0) (View.ld x2 rin0_2) (View.ld x3 rin0_3) (View.ld x1 rin0_1) (View.ld x4 rin0_4) (View.ld x5 rin0_5)⟩]

/-- The one store covers the block. -/
theorem cover0_6 (p0 : Vec F S8x128x1 .f32) (y : S8x128x1.Idx) :
    ∃ pc ∈ ([⟨rout0, p0⟩] : List (View.Piece (Elt F) S8x128x1 .f32)), y ∈ pc.1.set :=
  View.cover_of_tiled [⟨rout0, p0⟩] S8x128x1.size (by rfl) y

/-! ## The body -/

set_option maxHeartbeats 2000000 in
/-- On whole staging buffers — the six inputs at `x0 … x5`, the output at anything — the body runs to its end leaving the
    inputs as they were and the output at `out0_6` of them. -/
theorem sound_kernel0 (c : Dev nD) (E : Set ℕ) (i : grid0.Coords)
    (arg2 : Memref sig .tc .vmem S8x128x1024 .f32) (harg2 : arg2.IsWhole) (arg3 : Memref sig .tc .vmem S8x1024 .f32) (harg3 : arg3.IsWhole)
    (arg4 : Memref sig .tc .vmem S1024x1024 .bf16) (harg4 : arg4.IsWhole) (arg5 : Memref sig .tc .vmem S1x1024 .f32) (harg5 : arg5.IsWhole)
    (arg6 : Memref sig .tc .vmem S1024x1 .bf16) (harg6 : arg6.IsWhole) (arg7 : Memref sig .tc .vmem S1x1 .f32) (harg7 : arg7.IsWhole)
    (arg8 : Memref sig .tc .vmem S8x128x1 .f32) (harg8 : arg8.IsWhole)
    (x0 : Vec F S8x128x1024 .f32) (x1 : Vec F S8x1024 .f32) (x2 : Vec F S1024x1024 .bf16) (x3 : Vec F S1x1024 .f32)
    (x4 : Vec F S1024x1 .bf16) (x5 : Vec F S1x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out0_6 x0 x1 x2 x3 x4 x5)) -∗ K ⟨⟩))
      ⊢ wp frame (wpE (defs₀ (F := F)) Variants.none c none) E (cc0__logits_kernel i arg2 harg2 arg3 harg3 arg4 harg4 arg5 harg5 arg6 harg6 arg7 harg7 arg8 harg8) K := by
  simp only [cc0__logits_kernel_eq_skeleton]; unfold cc0__logits_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The proof data of the launch -/

/-- The arrays as the launch finds them (`V`); after the body at point `t` every input buffer at its block and the output
    buffer at `out0_6` of the six blocks; the invariant is the plain one (nothing of the kernel's own is kept between
    points); nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t
    = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The per-point obligation -/

/-- What the body is handed at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 2000000 in
/-- At any point the input buffers hold their blocks, so the body's triple applies; the invariant and what the core
    owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _
    (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The launch's obligation at every point. -/
theorem body_obligation0 (c : Dev nD) : BodyObligation (dat0 (F := F) V c) (defs₀ (F := F)) Variants.none () Set.univ := fun t => by
  rw [bigSep_W0, bigSep_W0]
  exact sound_body0 V c t

end

end Cert.Kernel.Attn

end
-- ==== Proof.BitsContextCases.lean ====
/-
  The second launch: what its three kinds of point share. The grid is again 8 x 8, the second coordinate li running
  over the eight tiles of 128 positions. The body keeps a running sum in a buffer of its own: at li = 0 it first
  zeroes it, at every point it adds the tile's weighted sum of feature rows, and at li = 7 it copies the sum into
  the output window, which the launch writes back only there. So a point is of one of three kinds — first tile,
  middle tile, last tile — told apart by two conditions on li, decided here once over the 64 points; where the
  condition of the last tile fails the output window is left alone and not written back.
-/
import proofs.«118650_j25967372271699_1_alg».proof.Proof.Gen.Kernel.Launch
import proofs.«118650_j25967372271699_1_alg».proof.Proof.Gen.Kernel.Skeleton
import proofs.«118650_j25967372271699_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The blocks -/

/-- Window `w`'s block at point `t`, read off `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end

/-! ## The two conditions on the tile index -/

/-- "This is the first tile": the condition under which the body zeroes its running sum. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last tile": the condition under which the body copies the sum out. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Off the last tile the output window is idle and is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- On the last tile it is live. -/
theorem liveAt1_2 : ∀ t : Fin cfg1.N, cond1_1 (grid1.coords t) → cfg1.idle 2 (grid1.coords t) = false := by decide +kernel

/-! ## The buffers the body is run on -/

abbrev VO1_2 : View sig .tc .vmem S8x1024 .f32 := (Memref.whole cc1_stg2_0 : Memref sig .tc .vmem S8x1024 .f32).view
abbrev ms1_0 (t : Fin cfg1.N) : Memref sig .tc .vmem S8x128x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x128x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x1024 .f32 := win1_2.stage (cfg1.slots t 2)
abbrev hs1_2 (t : Fin cfg1.N) : (ms1_2 t).IsWhole := hstage1_2 ((cfg1.slots t 2).cast nbuf1_2)
/-- The running sum's buffer, and the view its contents are stated through. -/
abbrev scM1 : Memref sig .tc .vmem S8x1024 .f32 := Memref.whole cc1_scratch0
abbrev VS1 : View sig .tc .vmem S8x1024 .f32 := scM1.view

/-- The plain invariant with the running sum's buffer shown: the scoped buffers this launch does not stage are the
    other launch's ten staging buffers and the running sum's, each at some contents, beside the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ d, owns (c : Thread nD τ) scM1 fullShare d)) ∗ (∃ r, prngReg c r)) := by
  unfold Pipeline.ΦA; rw [scopedRest1_eq]; simp only [scM1, owns_whole]; try rfl

end Cert.Kernel.Attn

end
-- ==== Proof.BitsContextFirst.lean ====
/-
  The second launch at a point of the FIRST tile (li = 0). The body zeroes its running sum, then adds the tile's
  weighted sum; the output window is left alone. Stated on any whole buffers: the two inputs at x0, x1, the output
  window at xi2 (handed back as found), the running sum's buffer at anything. What the run leaves in the running
  sum's buffer is kept as the list of its stores, last first, found by the run itself.
-/
import proofs.«118650_j25967372271699_1_alg».proof.Proof.BitsContextCases

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S8x128x1024 .f32) (harg2 : arg2.IsWhole) (arg3 : Memref sig .tc .vmem S8x128x1 .f32) (harg3 : arg3.IsWhole) (arg4 : Memref sig .tc .vmem S8x1024 .f32) (harg4 : arg4.IsWhole) (arg5 : Memref sig .tc .vmem S8x1024 .f32) (harg5 : arg5.IsWhole) (hc0 : cond1_0 i) (hc1 : ¬cond1_1 i)
    (x0 : Vec F S8x128x1024 .f32) (x1 : Vec F S8x128x1 .f32) :
    Σ' (L2 : List (View.Piece (Elt F) S8x1024 .f32)), { LS0 : List (View.Piece (Elt F) S8x1024 .f32) //
      ∀ (xi2 : Vec F S8x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__context_kernel i arg2 harg2 arg3 harg3 arg4 harg4 arg5 harg5) K } := by
  refine ⟨[], ?_, fun xi2 E K => ?run⟩
  case run =>
    simp only [cc1__context_kernel_eq_skeleton]; unfold cc1__context_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Attn

end
-- ==== Proof.BitsContextMiddle.lean ====
/-
  The second launch at a point of a MIDDLE tile (0 < li < 7). The body adds the tile's weighted sum to the running
  sum it finds (xs0, what the point before left); the output window is left alone.
-/
import proofs.«118650_j25967372271699_1_alg».proof.Proof.BitsContextCases

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S8x128x1024 .f32) (harg2 : arg2.IsWhole) (arg3 : Memref sig .tc .vmem S8x128x1 .f32) (harg3 : arg3.IsWhole) (arg4 : Memref sig .tc .vmem S8x1024 .f32) (harg4 : arg4.IsWhole) (arg5 : Memref sig .tc .vmem S8x1024 .f32) (harg5 : arg5.IsWhole) (hc0 : ¬cond1_0 i) (hc1 : ¬cond1_1 i)
    (x0 : Vec F S8x128x1024 .f32) (x1 : Vec F S8x128x1 .f32) (xs0 : Vec F S8x1024 .f32) :
    Σ' (L2 : List (View.Piece (Elt F) S8x1024 .f32)), { LS0 : List (View.Piece (Elt F) S8x1024 .f32) //
      ∀ (xi2 : Vec F S8x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__context_kernel i arg2 harg2 arg3 harg3 arg4 harg4 arg5 harg5) K } := by
  refine ⟨[], ?_, fun xi2 E K => ?run⟩
  case run =>
    simp only [cc1__context_kernel_eq_skeleton]; unfold cc1__context_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Attn

end
-- ==== Proof.BitsContextLast.lean ====
/-
  The second launch at a point of the LAST tile (li = 7). The body adds the tile's weighted sum to the running sum
  it finds (xs0), then copies the sum into the output window, whole. What the run leaves in the output window and in
  the running sum's buffer is kept as the lists of its stores, last first.
-/
import proofs.«118650_j25967372271699_1_alg».proof.Proof.BitsContextCases

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S8x128x1024 .f32) (harg2 : arg2.IsWhole) (arg3 : Memref sig .tc .vmem S8x128x1 .f32) (harg3 : arg3.IsWhole) (arg4 : Memref sig .tc .vmem S8x1024 .f32) (harg4 : arg4.IsWhole) (arg5 : Memref sig .tc .vmem S8x1024 .f32) (harg5 : arg5.IsWhole) (hc0 : ¬cond1_0 i) (hc1 : cond1_1 i)
    (x0 : Vec F S8x128x1024 .f32) (x1 : Vec F S8x128x1 .f32) (xs0 : Vec F S8x1024 .f32) :
    Σ' (L2 : List (View.Piece (Elt F) S8x1024 .f32)), { LS0 : List (View.Piece (Elt F) S8x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__context_kernel i arg2 harg2 arg3 harg3 arg4 harg4 arg5 harg5) K } := by
  refine ⟨?_, ?_, fun E K => ?run⟩
  case run =>
    simp only [cc1__context_kernel_eq_skeleton]; unfold cc1__context_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Attn

end
-- ==== Proof.BitsContext.lean ====
/-
  The second launch, point by point. After point n the running sum's buffer holds: at a first tile, what the body
  leaves starting from zero; otherwise what it leaves starting from what point n - 1 left. The output window holds,
  at a last tile, the copy of that sum. This recursion on the point is the whole content of the launch; the
  invariant kept between points is "the running sum's buffer holds what the recursion says" (before the very first
  point: anything), and the per-point obligation is one of the three runs, chosen by the tile index.
-/
import proofs.«118650_j25967372271699_1_alg».proof.Proof.BitsContextFirst
import proofs.«118650_j25967372271699_1_alg».proof.Proof.BitsContextMiddle
import proofs.«118650_j25967372271699_1_alg».proof.Proof.BitsContextLast

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## What each kind of point leaves -/

/-- At a first tile the stores into the running sum's buffer cover it (the last is whole). -/
theorem scover1_A (c : Dev nD) (i : grid1.Coords) (arg2 : Memref sig .tc .vmem S8x128x1024 .f32) (harg2 : arg2.IsWhole) (arg3 : Memref sig .tc .vmem S8x128x1 .f32) (harg3 : arg3.IsWhole) (arg4 : Memref sig .tc .vmem S8x1024 .f32) (harg4 : arg4.IsWhole) (arg5 : Memref sig .tc .vmem S8x1024 .f32) (harg5 : arg5.IsWhole) (hc0 : cond1_0 i) (hc1 : ¬cond1_1 i)
    (x0 : Vec F S8x128x1024 .f32) (x1 : Vec F S8x128x1 .f32) (y : S8x1024.Idx) :
    ∃ pc ∈ (kernelRun1_A c i arg2 harg2 arg3 harg3 arg4 harg4 arg5 harg5 hc0 hc1 x0 x1).2.1, y ∈ pc.1.set :=
  View.cover_of_wholeMem (kernelRun1_A c i arg2 harg2 arg3 harg3 arg4 harg4 arg5 harg5 hc0 hc1 x0 x1).2.1 (by sl_whole_mem) y
/-- What a first tile leaves in the running sum's buffer. -/
def sout1_A (c : Dev nD) (i : grid1.Coords) (arg2 : Memref sig .tc .vmem S8x128x1024 .f32) (harg2 : arg2.IsWhole) (arg3 : Memref sig .tc .vmem S8x128x1 .f32) (harg3 : arg3.IsWhole) (arg4 : Memref sig .tc .vmem S8x1024 .f32) (harg4 : arg4.IsWhole) (arg5 : Memref sig .tc .vmem S8x1024 .f32) (harg5 : arg5.IsWhole) (hc0 : cond1_0 i) (hc1 : ¬cond1_1 i)
    (x0 : Vec F S8x128x1024 .f32) (x1 : Vec F S8x128x1 .f32) : Vec F S8x1024 .f32 :=
  VS1.read (Elt F) (VS1.writes (Elt F) VS1.junk (kernelRun1_A c i arg2 harg2 arg3 harg3 arg4 harg4 arg5 harg5 hc0 hc1 x0 x1).2.1)
/-- A first tile stores nothing into the output window: a placeholder nothing consults. -/
def out1_A_2 (c : Dev nD) (i : grid1.Coords) (arg2 : Memref sig .tc .vmem S8x128x1024 .f32) (harg2 : arg2.IsWhole) (arg3 : Memref sig .tc .vmem S8x128x1 .f32) (harg3 : arg3.IsWhole) (arg4 : Memref sig .tc .vmem S8x1024 .f32) (harg4 : arg4.IsWhole) (arg5 : Memref sig .tc .vmem S8x1024 .f32) (harg5 : arg5.IsWhole) (hc0 : cond1_0 i) (hc1 : ¬cond1_1 i)
    (x0 : Vec F S8x128x1024 .f32) (x1 : Vec F S8x128x1 .f32) : Vec F S8x1024 .f32 :=
  VO1_2.read (Elt F) (VO1_2.writes (Elt F) VO1_2.junk (kernelRun1_A c i arg2 harg2 arg3 harg3 arg4 harg4 arg5 harg5 hc0 hc1 x0 x1).1)

theorem scover1_B (c : Dev nD) (i : grid1.Coords) (arg2 : Memref sig .tc .vmem S8x128x1024 .f32) (harg2 : arg2.IsWhole) (arg3 : Memref sig .tc .vmem S8x128x1 .f32) (harg3 : arg3.IsWhole) (arg4 : Memref sig .tc .vmem S8x1024 .f32) (harg4 : arg4.IsWhole) (arg5 : Memref sig .tc .vmem S8x1024 .f32) (harg5 : arg5.IsWhole) (hc0 : ¬cond1_0 i) (hc1 : ¬cond1_1 i)
    (x0 : Vec F S8x128x1024 .f32) (x1 : Vec F S8x128x1 .f32) (xs0 : Vec F S8x1024 .f32) (y : S8x1024.Idx) :
    ∃ pc ∈ (kernelRun1_B c i arg2 harg2 arg3 harg3 arg4 harg4 arg5 harg5 hc0 hc1 x0 x1 xs0).2.1, y ∈ pc.1.set :=
  View.cover_of_wholeMem (kernelRun1_B c i arg2 harg2 arg3 harg3 arg4 harg4 arg5 harg5 hc0 hc1 x0 x1 xs0).2.1 (by sl_whole_mem) y
/-- What a middle tile leaves in the running sum's buffer, from what it found there. -/
def sout1_B (c : Dev nD) (i : grid1.Coords) (arg2 : Memref sig .tc .vmem S8x128x1024 .f32) (harg2 : arg2.IsWhole) (arg3 : Memref sig .tc .vmem S8x128x1 .f32) (harg3 : arg3.IsWhole) (arg4 : Memref sig .tc .vmem S8x1024 .f32) (harg4 : arg4.IsWhole) (arg5 : Memref sig .tc .vmem S8x1024 .f32) (harg5 : arg5.IsWhole) (hc0 : ¬cond1_0 i) (hc1 : ¬cond1_1 i)
    (x0 : Vec F S8x128x1024 .f32) (x1 : Vec F S8x128x1 .f32) (xs0 : Vec F S8x1024 .f32) : Vec F S8x1024 .f32 :=
  VS1.read (Elt F) (VS1.writes (Elt F) VS1.junk (kernelRun1_B c i arg2 harg2 arg3 harg3 arg4 harg4 arg5 harg5 hc0 hc1 x0 x1 xs0).2.1)
def out1_B_2 (c : Dev nD) (i : grid1.Coords) (arg2 : Memref sig .tc .vmem S8x128x1024 .f32) (harg2 : arg2.IsWhole) (arg3 : Memref sig .tc .vmem S8x128x1 .f32) (harg3 : arg3.IsWhole) (arg4 : Memref sig .tc .vmem S8x1024 .f32) (harg4 : arg4.IsWhole) (arg5 : Memref sig .tc .vmem S8x1024 .f32) (harg5 : arg5.IsWhole) (hc0 : ¬cond1_0 i) (hc1 : ¬cond1_1 i)
    (x0 : Vec F S8x128x1024 .f32) (x1 : Vec F S8x128x1 .f32) (xs0 : Vec F S8x1024 .f32) : Vec F S8x1024 .f32 :=
  VO1_2.read (Elt F) (VO1_2.writes (Elt F) VO1_2.junk (kernelRun1_B c i arg2 harg2 arg3 harg3 arg4 harg4 arg5 harg5 hc0 hc1 x0 x1 xs0).1)

theorem scover1_C (c : Dev nD) (i : grid1.Coords) (arg2 : Memref sig .tc .vmem S8x128x1024 .f32) (harg2 : arg2.IsWhole) (arg3 : Memref sig .tc .vmem S8x128x1 .f32) (harg3 : arg3.IsWhole) (arg4 : Memref sig .tc .vmem S8x1024 .f32) (harg4 : arg4.IsWhole) (arg5 : Memref sig .tc .vmem S8x1024 .f32) (harg5 : arg5.IsWhole) (hc0 : ¬cond1_0 i) (hc1 : cond1_1 i)
    (x0 : Vec F S8x128x1024 .f32) (x1 : Vec F S8x128x1 .f32) (xs0 : Vec F S8x1024 .f32) (y : S8x1024.Idx) :
    ∃ pc ∈ (kernelRun1_C c i arg2 harg2 arg3 harg3 arg4 harg4 arg5 harg5 hc0 hc1 x0 x1 xs0).2.1, y ∈ pc.1.set :=
  View.cover_of_wholeMem (kernelRun1_C c i arg2 harg2 arg3 harg3 arg4 harg4 arg5 harg5 hc0 hc1 x0 x1 xs0).2.1 (by sl_whole_mem) y
theorem cover1_C_2 (c : Dev nD) (i : grid1.Coords) (arg2 : Memref sig .tc .vmem S8x128x1024 .f32) (harg2 : arg2.IsWhole) (arg3 : Memref sig .tc .vmem S8x128x1 .f32) (harg3 : arg3.IsWhole) (arg4 : Memref sig .tc .vmem S8x1024 .f32) (harg4 : arg4.IsWhole) (arg5 : Memref sig .tc .vmem S8x1024 .f32) (harg5 : arg5.IsWhole) (hc0 : ¬cond1_0 i) (hc1 : cond1_1 i)
    (x0 : Vec F S8x128x1024 .f32) (x1 : Vec F S8x128x1 .f32) (xs0 : Vec F S8x1024 .f32) (y : S8x1024.Idx) :
    ∃ pc ∈ (kernelRun1_C c i arg2 harg2 arg3 harg3 arg4 harg4 arg5 harg5 hc0 hc1 x0 x1 xs0).1, y ∈ pc.1.set :=
  View.cover_of_wholeMem (kernelRun1_C c i arg2 harg2 arg3 harg3 arg4 harg4 arg5 harg5 hc0 hc1 x0 x1 xs0).1 (by sl_whole_mem) y
/-- What a last tile leaves in the running sum's buffer, -/
def sout1_C (c : Dev nD) (i : grid1.Coords) (arg2 : Memref sig .tc .vmem S8x128x1024 .f32) (harg2 : arg2.IsWhole) (arg3 : Memref sig .tc .vmem S8x128x1 .f32) (harg3 : arg3.IsWhole) (arg4 : Memref sig .tc .vmem S8x1024 .f32) (harg4 : arg4.IsWhole) (arg5 : Memref sig .tc .vmem S8x1024 .f32) (harg5 : arg5.IsWhole) (hc0 : ¬cond1_0 i) (hc1 : cond1_1 i)
    (x0 : Vec F S8x128x1024 .f32) (x1 : Vec F S8x128x1 .f32) (xs0 : Vec F S8x1024 .f32) : Vec F S8x1024 .f32 :=
  VS1.read (Elt F) (VS1.writes (Elt F) VS1.junk (kernelRun1_C c i arg2 harg2 arg3 harg3 arg4 harg4 arg5 harg5 hc0 hc1 x0 x1 xs0).2.1)
/-- and in the output window: the copy of the sum. -/
def out1_C_2 (c : Dev nD) (i : grid1.Coords) (arg2 : Memref sig .tc .vmem S8x128x1024 .f32) (harg2 : arg2.IsWhole) (arg3 : Memref sig .tc .vmem S8x128x1 .f32) (harg3 : arg3.IsWhole) (arg4 : Memref sig .tc .vmem S8x1024 .f32) (harg4 : arg4.IsWhole) (arg5 : Memref sig .tc .vmem S8x1024 .f32) (harg5 : arg5.IsWhole) (hc0 : ¬cond1_0 i) (hc1 : cond1_1 i)
    (x0 : Vec F S8x128x1024 .f32) (x1 : Vec F S8x128x1 .f32) (xs0 : Vec F S8x1024 .f32) : Vec F S8x1024 .f32 :=
  VO1_2.read (Elt F) (VO1_2.writes (Elt F) VO1_2.junk (kernelRun1_C c i arg2 harg2 arg3 harg3 arg4 harg4 arg5 harg5 hc0 hc1 x0 x1 xs0).1)

/-! ## Point by point -/

/-- (output window, running sum) after a first tile `t`, -/
def ptA (c : Dev nD) (t : Fin cfg1.N) (h0 : t.val % 8 = 0) (h1 : ¬t.val % 8 = 7) : Vec F S8x1024 .f32 × Vec F S8x1024 .f32 :=
  (out1_A_2 c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t),
   sout1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t))
/-- after a middle tile, from the running sum `xs` found, -/
def ptB (c : Dev nD) (t : Fin cfg1.N) (h0 : ¬t.val % 8 = 0) (h1 : ¬t.val % 8 = 7) (xs : Vec F S8x1024 .f32) : Vec F S8x1024 .f32 × Vec F S8x1024 .f32 :=
  (out1_B_2 c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) xs,
   sout1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) xs)
/-- and after a last tile. -/
def ptC (c : Dev nD) (t : Fin cfg1.N) (h0 : ¬t.val % 8 = 0) (h1 : t.val % 8 = 7) (xs : Vec F S8x1024 .f32) : Vec F S8x1024 .f32 × Vec F S8x1024 .f32 :=
  (out1_C_2 c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) xs,
   sout1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) xs)

/-- THE RECURSION: (output window, running sum) after the body at point `n`. -/
def outsAt1 (c : Dev nD) : (n : ℕ) → n < cfg1.N → Vec F S8x1024 .f32 × Vec F S8x1024 .f32
  | 0, hn => ptA V c ⟨0, hn⟩ (Nat.zero_mod _) (by show ¬ (0 % 8 = 7); omega)
  | n + 1, hn =>
    if h0 : (n + 1) % 8 = 0 then
      if h1 : (n + 1) % 8 = 7 then False.elim (by omega)
      else ptA V c ⟨n + 1, hn⟩ h0 h1
    else
      if h1 : (n + 1) % 8 = 7 then ptC V c ⟨n + 1, hn⟩ h0 h1 (outsAt1 c n (Nat.lt_of_succ_lt hn)).2
      else ptB V c ⟨n + 1, hn⟩ h0 h1 (outsAt1 c n (Nat.lt_of_succ_lt hn)).2

theorem outsAt1_A (c : Dev nD) (t : Fin cfg1.N) (h0 : t.val % 8 = 0) (h1 : ¬t.val % 8 = 7) :
    outsAt1 V c t.val t.isLt = ptA V c t h0 h1 := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = ptB V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 8 = 0) (h1 : t.val % 8 = 7) :
    outsAt1 V c t.val t.isLt = ptC V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-! ## The invariant between points -/

/-- Before the first point the plain invariant; before point n + 1 the running sum's buffer at what point n left, the
    other launch's staging buffers at anything, the generator register at some state. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1 fullShare ((outsAt1 V c n hn).2)) ∗ (∃ r, prngReg c r)) := rfl
theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1 fullShare ((outsAt1 V c (n - 1) (by omega)).2)) ∗ (∃ r, prngReg c r)) := by
  cases n with
  | zero => exact absurd rfl hz
  | succ n => rfl

/-! ## The proof data of the launch -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The per-point obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 8000000 in
/-- At any point: the inputs hold their blocks; the tile index says which run applies; the invariant hands the run the
    running sum at what the point before left (at anything before the very first point) and takes it back at this
    point's; off the last tile the output window goes back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  by_cases h0 : t.val % 8 = 0
  · by_cases h1 : t.val % 8 = 7
    · exfalso; omega
    · -- a first tile
      rw [Dat.leavesExact_idle (dat1 V c) 2 t (idleAt1_2 t (fun h => h1 ((hcond1_1 t).mp h))) (noFlush1_2 t (fun h => h1 ((hcond1_1 t).mp h)))]
      rw [outsAt1_A V c t h0 h1]
      unfold ptA sout1_A; (try dsimp only)
      by_cases hz : t.val = 0
      · rw [PhiS_castSucc V c t, PhiS_zero V c _ _ hz, PhiA1_eq]
        iintro ⟨⟨⟨R0, R1, R2, R3, R4, R5, R6, R7, R8, R9, HS0⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [R0 R1 R2 R3 R4 R5 R6 R7 R8 R9 HS0 Hg]
        · isplitl [R0 R1 R2 R3 R4 R5 R6 R7 R8 R9 HS0]
          ·
            isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            unfold owns; iexists _; isplitr
            swap; · iexact HS0
            ipureintro; exact View.read_writes_of_cover _ _ _ _ _ (scover1_A c _ _ _ _ _ _ _ _ _ _ _ _ _)
          iexact Hg
        isplitl [Ho]; · iexact Ho
        isplitl [H0]; · iexact H0
        isplitl [H1]; · iexact H1
        iexists _; iexact H2
      · rw [PhiS_castSucc V c t, PhiS_pos V c _ _ hz]
        iintro ⟨⟨⟨R0, R1, R2, R3, R4, R5, R6, R7, R8, R9, HS0⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [R0 R1 R2 R3 R4 R5 R6 R7 R8 R9 HS0 Hg]
        · isplitl [R0 R1 R2 R3 R4 R5 R6 R7 R8 R9 HS0]
          ·
            isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            unfold owns; iexists _; isplitr
            swap; · iexact HS0
            ipureintro; exact View.read_writes_of_cover _ _ _ _ _ (scover1_A c _ _ _ _ _ _ _ _ _ _ _ _ _)
          iexact Hg
        isplitl [Ho]; · iexact Ho
        isplitl [H0]; · iexact H0
        isplitl [H1]; · iexact H1
        iexists _; iexact H2
  · have hz : t.val ≠ 0 := fun e => h0 (by rw [e])
    by_cases h1 : t.val % 8 = 7
    · -- a last tile
      rw [show (dat1 V c).leavesExact 2 t = owns (c : Thread nD τ) (ms1_2 t) fullShare ((dat1 V c).after 2 t) from by
          unfold Dat.leavesExact; rw [liveAt1_2 t ((hcond1_1 t).mpr h1)], after1_2]
      rw [outsAt1_C V c t h0 h1]
      unfold ptC out1_C_2 sout1_C; (try dsimp only)
      rw [PhiS_castSucc V c t, PhiS_pos V c _ _ hz]
      iintro ⟨⟨⟨R0, R1, R2, R3, R4, R5, R6, R7, R8, R9, HS0⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [R0 R1 R2 R3 R4 R5 R6 R7 R8 R9 HS0 Hg]
      · isplitl [R0 R1 R2 R3 R4 R5 R6 R7 R8 R9 HS0]
        ·
          isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          unfold owns; iexists _; isplitr
          swap; · iexact HS0
          ipureintro; exact View.read_writes_of_cover _ _ _ _ _ (scover1_C c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · -- a middle tile
      rw [Dat.leavesExact_idle (dat1 V c) 2 t (idleAt1_2 t (fun h => h1 ((hcond1_1 t).mp h))) (noFlush1_2 t (fun h => h1 ((hcond1_1 t).mp h)))]
      rw [outsAt1_B V c t h0 h1]
      unfold ptB sout1_B; (try dsimp only)
      rw [PhiS_castSucc V c t, PhiS_pos V c _ _ hz]
      iintro ⟨⟨⟨R0, R1, R2, R3, R4, R5, R6, R7, R8, R9, HS0⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [R0 R1 R2 R3 R4 R5 R6 R7 R8 R9 HS0 Hg]
      · isplitl [R0 R1 R2 R3 R4 R5 R6 R7 R8 R9 HS0]
        ·
          isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          unfold owns; iexists _; isplitr
          swap; · iexact HS0
          ipureintro; exact View.read_writes_of_cover _ _ _ _ _ (scover1_B c _ _ _ _ _ _ _ _ _ _ _ _ _ _)
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

/-- Entering the launch: the plain invariant is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- Leaving it: after the last point the running sum's named contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 64 := N_1; omega
  rw [show (dat1 V c).Φ (Fin.last cfg1.N) = PhiS V c (Fin.last cfg1.N).val (Nat.le_of_lt_succ (Fin.last cfg1.N).isLt) from rfl,
    PhiS_pos V c _ _ hne, PhiA1_eq]
  iintro ⟨⟨R0, R1, R2, R3, R4, R5, R6, R7, R8, R9, HS0⟩, Hg⟩
  isplitl [R0 R1 R2 R3 R4 R5 R6 R7 R8 R9 HS0]
  ·
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    iexists _; iexact HS0
  iexact Hg

end

end Cert.Kernel.Attn

end
-- ==== Proof.BitsRun.lean ====
/-
  The whole program as four stretches: host operations, the first launch, host operations, the second launch.
  The contents of the device's buffers are followed through the four: a stretch of host operations applies its
  operations; a launch replaces each of its windows' arrays by what its write-backs leave and touches nothing else.
  Every weakly fair execution terminates, and at the end EVERY buffer that outlives a launch holds what this fold
  says — from which both "the arguments are unchanged" and the values of the two results are read.
-/
import proofs.«118650_j25967372271699_1_alg».proof.Proof.BitsLogits
import proofs.«118650_j25967372271699_1_alg».proof.Proof.BitsContext
import proofs.«118650_j25967372271699_1_alg».proof.Proof.Gen.Kernel.Regions

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at the five boundaries -/

/-- At launch. -/
abbrev W0 : Dev nD → Valuation τ sig (Elt F) := fun c b => (s₀ m ρ).mem ((c : Dev nD), b)
/-- After the first stretch of host operations (the first launch's entry). -/
abbrev W1 : Dev nD → Valuation τ sig (Elt F) := fun c => StableHlo.after hostOps0 (W0 m ρ c)
abbrev VV1 : (c : Dev nD) → (b : Ref sig .tc) → Buf (Elt F) ((c : Thread nD τ).loc b) := fun c b => W1 m ρ c b
/-- After the first launch: its arrays at what its write-backs leave, every other buffer as entered. -/
def W2 (c : Dev nD) : Valuation τ sig (Elt F) :=
  Pipeline.withArrays spec0 c (W1 m ρ c) fun w => (dat0 (VV1 m ρ) c).arrAt w cfg0.N
theorem W2_arr (c : Dev nD) (w : Fin cfg0.W) :
    W2 m ρ c (Proc.devRef .tc (Pipeline.arrRef spec0 w)) = (dat0 (VV1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev VV2 : (c : Dev nD) → (b : Ref sig .tc) → Buf (Elt F) ((c : Thread nD τ).loc b) := fun c b => W2 m ρ c b
theorem hF0 (c : Dev nD) (w : Fin cfg0.W) : (dat0 (VV1 m ρ) c).arrAt w cfg0.N = VV2 m ρ c (Pipeline.arrRef spec0 w) :=
  (W2_arr m ρ c w).symm
theorem hrest0 (c : Dev nD) : ∀ b, b ∉ Finset.univ.image (Pipeline.arrRef spec0) → VV2 m ρ c b = VV1 m ρ c b :=
  fun b hb => W2_of_ne m ρ c b fun w e => hb (Finset.mem_image.mpr ⟨w, Finset.mem_univ _, e⟩)

/-- After the second stretch of host operations (the second launch's entry). -/
abbrev W3 : Dev nD → Valuation τ sig (Elt F) := fun c => StableHlo.after hostOps1 (W2 m ρ c)
abbrev VV3 : (c : Dev nD) → (b : Ref sig .tc) → Buf (Elt F) ((c : Thread nD τ).loc b) := fun c b => W3 m ρ c b
/-- After the second launch. -/
def W4 (c : Dev nD) : Valuation τ sig (Elt F) :=
  Pipeline.withArrays spec1 c (W3 m ρ c) fun w => (dat1 (VV3 m ρ) c).arrAt w cfg1.N
theorem W4_arr (c : Dev nD) (w : Fin cfg1.W) :
    W4 m ρ c (Proc.devRef .tc (Pipeline.arrRef spec1 w)) = (dat1 (VV3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev VV4 : (c : Dev nD) → (b : Ref sig .tc) → Buf (Elt F) ((c : Thread nD τ).loc b) := fun c b => W4 m ρ c b
theorem hF1 (c : Dev nD) (w : Fin cfg1.W) : (dat1 (VV3 m ρ) c).arrAt w cfg1.N = VV4 m ρ c (Pipeline.arrRef spec1 w) :=
  (W4_arr m ρ c w).symm
theorem hrest1 (c : Dev nD) : ∀ b, b ∉ Finset.univ.image (Pipeline.arrRef spec1) → VV4 m ρ c b = VV3 m ρ c b :=
  fun b hb => W4_of_ne m ρ c b fun w e => hb (Finset.mem_image.mpr ⟨w, Finset.mem_univ _, e⟩)

/-! ## The arguments end as launched

No host operation writes an argument, and a launch either reads it through an input window or does not touch it. -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat1 (VV3 m ρ) c).arrAt_in 0 rfl _).trans (A_eq1 (VV3 m ρ) c 0))
    _ = W2 m ρ c (Proc.devRef .tc main_arg0) := StableHlo.after_of_writes_sub hostOps1 _ hostOps1_writes (by decide)
    _ = W1 m ρ c (Proc.devRef .tc main_arg0) := (W2_arr m ρ c 0).trans (((dat0 (VV1 m ρ) c).arrAt_in 0 rfl _).trans (A_eq0 (VV1 m ρ) c 0))
    _ = W0 m ρ c (Proc.devRef .tc main_arg0) := StableHlo.after_of_writes_sub hostOps0 _ hostOps0_writes (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

/-! ## The proof data of both launches, and what rides beside the buffers -/

abbrev admT : (p : Fin 2) → (pcfgs (F := F) p).Adm := fun p => (cfgs p).toPCfg_adm
/-- Each launch's proof data at its own entry contents. -/
def pdat : (p : Fin 2) → (c : Dev nD) → Dat τ (Elt F) Unit ℕ (UR sig nD τ) ℕ (Pipeline.pin (pcfgs (F := F)) admT p) c
  | ⟨0, _⟩ => fun c => dat0 (VV1 m ρ) c
  | ⟨1, _⟩ => fun c => dat1 (VV3 m ρ) c
abbrev 𝒱₀ : Variants := Variants.none
abbrev L : GSem nD τ sig → Finset Unit := fun _ => ∅
abbrev lv : GSem nD τ sig → Unit → ℕ := fun _ _ => 0
/-- The generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The launches as stretches -/

-- a library lemma stated over the pinned configuration unifies with the printed one only when unification may unfold
-- plain definitions in a metavariable's type
set_option backward.isDefEq.respectTransparency.types false in
def reg0 : Pipeline.RegionSeg (pcfgs (F := F)) admT (pdat m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VV1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (VV1 m ρ c)
  hentry c := by
    rw [Pipeline.ownSems0_none]
    have hsplit := Pipeline.arrays_of_unscopedBufs (p := 0) (pcfgs (F := F)) admT (pdat m ρ) launch0.win launch0.arr_whole c
      ((pdat m ρ 0 c).share_full fun _ => rfl) (VV1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdat m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admT (Ix := Unit) (Name := ℕ) (U := UR sig nD τ) (Lvl := ℕ)
      launch0.win launch0.arr_whole c (pdat m ρ) ((pdat m ρ 0 c).share_full fun _ => rfl)
      (VV1 m ρ c) (VV2 m ρ c) ((pdat m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
def reg1 : Pipeline.RegionSeg (pcfgs (F := F)) admT (pdat m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VV3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (VV3 m ρ c)
  hentry c := by
    rw [Pipeline.ownSems0_none]
    have hsplit := Pipeline.arrays_of_unscopedBufs (p := 1) (pcfgs (F := F)) admT (pdat m ρ) launch1.win launch1.arr_whole c
      ((pdat m ρ 1 c).share_full fun _ => rfl) (VV3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have hback : (pdat m ρ 1 c).Φ (Fin.last _) ⊢ (iprop(Pipeline.scopedRest spec1 c ∗ ∃ r, prngReg c r) : sProp 𝕄) := by
      have h := hout1 (VV3 m ρ) c
      unfold Pipeline.ΦA at h
      exact h
    iintro Hinv
    ihave H := hback $$ Hinv
    icases H with ⟨Hr, Hp⟩
    isplitl [Hp]; · iexact Hp
    isplitr; · iempintro
    iexact Hr
  hexit c := by
    have hjoin := Pipeline.unscopedBufs_of_arrays (p := 1) (pcfgs (F := F)) admT (Ix := Unit) (Name := ℕ) (U := UR sig nD τ) (Lvl := ℕ)
      launch1.win launch1.arr_whole c (pdat m ρ) ((pdat m ρ 1 c).share_full fun _ => rfl)
      (VV3 m ρ c) (VV4 m ρ c) ((pdat m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

abbrev segL : List (Pipeline.Seg (pcfgs (F := F)) admT (pdat m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segL m ρ) := (main_chain c).trans (by chain_rfl)

set_option backward.isDefEq.respectTransparency.types false in
/-- Every weakly fair execution of the program from `m` terminates without a fault, and in every final state each
    buffer that outlives a launch holds what the fold `W4` says. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) admT (pdat m ρ) () cellOf_inj emb₁ defs₀ 𝒱₀ L lv m ρ main (segL m ρ)
    (fun c Q => by rw [main_run m ρ c])
    (by simp only [segL, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show (iprop(StableHlo.held (c : Thread nD τ) (Pipeline.ucRefs τ sig) (W4 m ρ c) ∗ R c) : sProp 𝕄)
        ⊢ iprop(Tₙ m ρ c ∗ ∃ W, owes (c.tc : Thread nD τ) (0 : CellTallies nD τ sig Unit) W)
      iintro ⟨Hh, ⟨Hp, HO⟩⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c)⟩) (run_all m ρ)

end Cert.Kernel.Attn

end
-- ==== Proof.IdealLogits.lean ====
/-
  The first launch, point by point. The grid is 8 x 8; at point (bi, li) the body sees rows [8 bi, 8 bi + 8) and
  positions [128 li, 128 li + 128) of the features, the matching 8 rows of the hidden projection, and the two weight
  matrices and two biases whole. It stores ONE block of logits, a function of those six blocks alone, and keeps nothing
  from point to point: so what the output window holds after the body is named here as a function of the six input
  blocks, the body is shown to leave exactly that (and every input block as found), and the per-point obligation of the
  launch follows. Everything is stated at ANY contents V of the device's buffers at the moment the launch is entered,
  and for any interpretation F of the floating-point operations.
-/
import proofs.«118650_j25967372271699_1_alg».proof.Proof.Gen.KernelIdeal.Launch
import proofs.«118650_j25967372271699_1_alg».proof.Proof.Gen.KernelIdeal.Skeleton
import proofs.«118650_j25967372271699_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The blocks -/

/-- Window `w`'s block at point `t`: the rectangle of its array the index map names there, read off `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 holds its block at every point, whether the point fetched it or found it from the point before
    (then the block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 holds its block at every point, whether the point fetched it or found it from the point before
    (then the block index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 holds its block at every point, whether the point fetched it or found it from the point before
    (then the block index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3 holds its block at every point, whether the point fetched it or found it from the point before
    (then the block index has not moved). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4 holds its block at every point, whether the point fetched it or found it from the point before
    (then the block index has not moved). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5 holds its block at every point, whether the point fetched it or found it from the point before
    (then the block index has not moved). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## What the body reads and writes -/

abbrev rin0_0 : Rect S8x128x1024 := Rect.unit (s := S8x128x1024) ![0, 0, 0] S8x128x1024.size inb_S8x128x1024_S8x128x1024_0_0_0
abbrev rin0_1 : Rect S8x1024 := Rect.unit (s := S8x1024) ![0, 0] S8x1024.size inb_S8x1024_S8x1024_0_0
abbrev rin0_2 : Rect S1024x1024 := Rect.unit (s := S1024x1024) ![0, 0] S1024x1024.size inb_S1024x1024_S1024x1024_0_0
abbrev rin0_3 : Rect S1x1024 := Rect.unit (s := S1x1024) ![0, 0] S1x1024.size inb_S1x1024_S1x1024_0_0
abbrev rin0_4 : Rect S1024x1 := Rect.unit (s := S1024x1) ![0, 0] S1024x1.size inb_S1024x1_S1024x1_0_0
abbrev rin0_5 : Rect S1x1 := Rect.unit (s := S1x1) ![0, 0] S1x1.size inb_S1x1_S1x1_0_0
abbrev rout0 : Rect S8x128x1 := Rect.unit (s := S8x128x1) ![0, 0, 0] S8x128x1.size inb_S8x128x1_S8x128x1_0_0_0

/-- The logits block the body stores, from the six input blocks: its one store, whole. -/
def out0_6 (x0 : Vec F S8x128x1024 .f32) (x1 : Vec F S8x1024 .f32) (x2 : Vec F S1024x1024 .bf16) (x3 : Vec F S1x1024 .f32)
    (x4 : Vec F S1024x1 .bf16) (x5 : Vec F S1x1 .f32) : Vec F S8x128x1 .f32 :=
  View.canon [⟨rout0, k0_pay1 (View.ld x0 rin0_0) (View.ld x2 rin0_2) (View.ld x3 rin0_3) (View.ld x1 rin0_1) (View.ld x4 rin0_4) (View.ld x5 rin0_5)⟩]

/-- The one store covers the block. -/
theorem cover0_6 (p0 : Vec F S8x128x1 .f32) (y : S8x128x1.Idx) :
    ∃ pc ∈ ([⟨rout0, p0⟩] : List (View.Piece (Elt F) S8x128x1 .f32)), y ∈ pc.1.set :=
  View.cover_of_tiled [⟨rout0, p0⟩] S8x128x1.size (by rfl) y

/-! ## The body -/

set_option maxHeartbeats 2000000 in
/-- On whole staging buffers — the six inputs at `x0 … x5`, the output at anything — the body runs to its end leaving the
    inputs as they were and the output at `out0_6` of them. -/
theorem sound_kernel0 (c : Dev nD) (E : Set ℕ) (i : grid0.Coords)
    (arg2 : Memref sig .tc .vmem S8x128x1024 .f32) (harg2 : arg2.IsWhole) (arg3 : Memref sig .tc .vmem S8x1024 .f32) (harg3 : arg3.IsWhole)
    (arg4 : Memref sig .tc .vmem S1024x1024 .bf16) (harg4 : arg4.IsWhole) (arg5 : Memref sig .tc .vmem S1x1024 .f32) (harg5 : arg5.IsWhole)
    (arg6 : Memref sig .tc .vmem S1024x1 .bf16) (harg6 : arg6.IsWhole) (arg7 : Memref sig .tc .vmem S1x1 .f32) (harg7 : arg7.IsWhole)
    (arg8 : Memref sig .tc .vmem S8x128x1 .f32) (harg8 : arg8.IsWhole)
    (x0 : Vec F S8x128x1024 .f32) (x1 : Vec F S8x1024 .f32) (x2 : Vec F S1024x1024 .bf16) (x3 : Vec F S1x1024 .f32)
    (x4 : Vec F S1024x1 .bf16) (x5 : Vec F S1x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out0_6 x0 x1 x2 x3 x4 x5)) -∗ K ⟨⟩))
      ⊢ wp frame (wpE (defs₀ (F := F)) Variants.none c none) E (cc0__logits_kernel i arg2 harg2 arg3 harg3 arg4 harg4 arg5 harg5 arg6 harg6 arg7 harg7 arg8 harg8) K := by
  simp only [cc0__logits_kernel_eq_skeleton]; unfold cc0__logits_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The proof data of the launch -/

/-- The arrays as the launch finds them (`V`); after the body at point `t` every input buffer at its block and the output
    buffer at `out0_6` of the six blocks; the invariant is the plain one (nothing of the kernel's own is kept between
    points); nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t
    = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The per-point obligation -/

/-- What the body is handed at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 2000000 in
/-- At any point the input buffers hold their blocks, so the body's triple applies; the invariant and what the core
    owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _
    (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The launch's obligation at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Attn

end
-- ==== Proof.IdealContextCases.lean ====
/-
  The second launch: what its three kinds of point share. The grid is again 8 x 8, the second coordinate li running
  over the eight tiles of 128 positions. The body keeps a running sum in a buffer of its own: at li = 0 it first
  zeroes it, at every point it adds the tile's weighted sum of feature rows, and at li = 7 it copies the sum into
  the output window, which the launch writes back only there. So a point is of one of three kinds — first tile,
  middle tile, last tile — told apart by two conditions on li, decided here once over the 64 points; where the
  condition of the last tile fails the output window is left alone and not written back.
-/
import proofs.«118650_j25967372271699_1_alg».proof.Proof.Gen.KernelIdeal.Launch
import proofs.«118650_j25967372271699_1_alg».proof.Proof.Gen.KernelIdeal.Skeleton
import proofs.«118650_j25967372271699_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The blocks -/

/-- Window `w`'s block at point `t`, read off `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end

/-! ## The two conditions on the tile index -/

/-- "This is the first tile": the condition under which the body zeroes its running sum. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last tile": the condition under which the body copies the sum out. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Off the last tile the output window is idle and is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- On the last tile it is live. -/
theorem liveAt1_2 : ∀ t : Fin cfg1.N, cond1_1 (grid1.coords t) → cfg1.idle 2 (grid1.coords t) = false := by decide +kernel

/-! ## The buffers the body is run on -/

abbrev VO1_2 : View sig .tc .vmem S8x1024 .f32 := (Memref.whole cc1_stg2_0 : Memref sig .tc .vmem S8x1024 .f32).view
abbrev ms1_0 (t : Fin cfg1.N) : Memref sig .tc .vmem S8x128x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x128x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x1024 .f32 := win1_2.stage (cfg1.slots t 2)
abbrev hs1_2 (t : Fin cfg1.N) : (ms1_2 t).IsWhole := hstage1_2 ((cfg1.slots t 2).cast nbuf1_2)
/-- The running sum's buffer, and the view its contents are stated through. -/
abbrev scM1 : Memref sig .tc .vmem S8x1024 .f32 := Memref.whole cc1_scratch0
abbrev VS1 : View sig .tc .vmem S8x1024 .f32 := scM1.view

/-- The plain invariant with the running sum's buffer shown: the scoped buffers this launch does not stage are the
    other launch's ten staging buffers and the running sum's, each at some contents, beside the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ d, owns (c : Thread nD τ) scM1 fullShare d)) ∗ (∃ r, prngReg c r)) := by
  unfold Pipeline.ΦA; rw [scopedRest1_eq]; simp only [scM1, owns_whole]; try rfl

end Cert.KernelIdeal.Attn

end
-- ==== Proof.IdealContextFirst.lean ====
/-
  The second launch at a point of the FIRST tile (li = 0). The body zeroes its running sum, then adds the tile's
  weighted sum; the output window is left alone. Stated on any whole buffers: the two inputs at x0, x1, the output
  window at xi2 (handed back as found), the running sum's buffer at anything. What the run leaves in the running
  sum's buffer is kept as the list of its stores, last first, found by the run itself.
-/
import proofs.«118650_j25967372271699_1_alg».proof.Proof.IdealContextCases

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S8x128x1024 .f32) (harg2 : arg2.IsWhole) (arg3 : Memref sig .tc .vmem S8x128x1 .f32) (harg3 : arg3.IsWhole) (arg4 : Memref sig .tc .vmem S8x1024 .f32) (harg4 : arg4.IsWhole) (arg5 : Memref sig .tc .vmem S8x1024 .f32) (harg5 : arg5.IsWhole) (hc0 : cond1_0 i) (hc1 : ¬cond1_1 i)
    (x0 : Vec F S8x128x1024 .f32) (x1 : Vec F S8x128x1 .f32) :
    Σ' (L2 : List (View.Piece (Elt F) S8x1024 .f32)), { LS0 : List (View.Piece (Elt F) S8x1024 .f32) //
      ∀ (xi2 : Vec F S8x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__context_kernel i arg2 harg2 arg3 harg3 arg4 harg4 arg5 harg5) K } := by
  refine ⟨[], ?_, fun xi2 E K => ?run⟩
  case run =>
    simp only [cc1__context_kernel_eq_skeleton]; unfold cc1__context_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Attn

end
-- ==== Proof.IdealContextMiddle.lean ====
/-
  The second launch at a point of a MIDDLE tile (0 < li < 7). The body adds the tile's weighted sum to the running
  sum it finds (xs0, what the point before left); the output window is left alone.
-/
import proofs.«118650_j25967372271699_1_alg».proof.Proof.IdealContextCases

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S8x128x1024 .f32) (harg2 : arg2.IsWhole) (arg3 : Memref sig .tc .vmem S8x128x1 .f32) (harg3 : arg3.IsWhole) (arg4 : Memref sig .tc .vmem S8x1024 .f32) (harg4 : arg4.IsWhole) (arg5 : Memref sig .tc .vmem S8x1024 .f32) (harg5 : arg5.IsWhole) (hc0 : ¬cond1_0 i) (hc1 : ¬cond1_1 i)
    (x0 : Vec F S8x128x1024 .f32) (x1 : Vec F S8x128x1 .f32) (xs0 : Vec F S8x1024 .f32) :
    Σ' (L2 : List (View.Piece (Elt F) S8x1024 .f32)), { LS0 : List (View.Piece (Elt F) S8x1024 .f32) //
      ∀ (xi2 : Vec F S8x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__context_kernel i arg2 harg2 arg3 harg3 arg4 harg4 arg5 harg5) K } := by
  refine ⟨[], ?_, fun xi2 E K => ?run⟩
  case run =>
    simp only [cc1__context_kernel_eq_skeleton]; unfold cc1__context_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Attn

end
-- ==== Proof.IdealContextLast.lean ====
/-
  The second launch at a point of the LAST tile (li = 7). The body adds the tile's weighted sum to the running sum
  it finds (xs0), then copies the sum into the output window, whole. What the run leaves in the output window and in
  the running sum's buffer is kept as the lists of its stores, last first.
-/
import proofs.«118650_j25967372271699_1_alg».proof.Proof.IdealContextCases

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S8x128x1024 .f32) (harg2 : arg2.IsWhole) (arg3 : Memref sig .tc .vmem S8x128x1 .f32) (harg3 : arg3.IsWhole) (arg4 : Memref sig .tc .vmem S8x1024 .f32) (harg4 : arg4.IsWhole) (arg5 : Memref sig .tc .vmem S8x1024 .f32) (harg5 : arg5.IsWhole) (hc0 : ¬cond1_0 i) (hc1 : cond1_1 i)
    (x0 : Vec F S8x128x1024 .f32) (x1 : Vec F S8x128x1 .f32) (xs0 : Vec F S8x1024 .f32) :
    Σ' (L2 : List (View.Piece (Elt F) S8x1024 .f32)), { LS0 : List (View.Piece (Elt F) S8x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__context_kernel i arg2 harg2 arg3 harg3 arg4 harg4 arg5 harg5) K } := by
  refine ⟨?_, ?_, fun E K => ?run⟩
  case run =>
    simp only [cc1__context_kernel_eq_skeleton]; unfold cc1__context_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Attn

end
-- ==== Proof.IdealContext.lean ====
/-
  The second launch, point by point. After point n the running sum's buffer holds: at a first tile, what the body
  leaves starting from zero; otherwise what it leaves starting from what point n - 1 left. The output window holds,
  at a last tile, the copy of that sum. This recursion on the point is the whole content of the launch; the
  invariant kept between points is "the running sum's buffer holds what the recursion says" (before the very first
  point: anything), and the per-point obligation is one of the three runs, chosen by the tile index.
-/
import proofs.«118650_j25967372271699_1_alg».proof.Proof.IdealContextFirst
import proofs.«118650_j25967372271699_1_alg».proof.Proof.IdealContextMiddle
import proofs.«118650_j25967372271699_1_alg».proof.Proof.IdealContextLast

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## What each kind of point leaves -/

/-- At a first tile the stores into the running sum's buffer cover it (the last is whole). -/
theorem scover1_A (c : Dev nD) (i : grid1.Coords) (arg2 : Memref sig .tc .vmem S8x128x1024 .f32) (harg2 : arg2.IsWhole) (arg3 : Memref sig .tc .vmem S8x128x1 .f32) (harg3 : arg3.IsWhole) (arg4 : Memref sig .tc .vmem S8x1024 .f32) (harg4 : arg4.IsWhole) (arg5 : Memref sig .tc .vmem S8x1024 .f32) (harg5 : arg5.IsWhole) (hc0 : cond1_0 i) (hc1 : ¬cond1_1 i)
    (x0 : Vec F S8x128x1024 .f32) (x1 : Vec F S8x128x1 .f32) (y : S8x1024.Idx) :
    ∃ pc ∈ (kernelRun1_A c i arg2 harg2 arg3 harg3 arg4 harg4 arg5 harg5 hc0 hc1 x0 x1).2.1, y ∈ pc.1.set :=
  View.cover_of_wholeMem (kernelRun1_A c i arg2 harg2 arg3 harg3 arg4 harg4 arg5 harg5 hc0 hc1 x0 x1).2.1 (by sl_whole_mem) y
/-- What a first tile leaves in the running sum's buffer. -/
def sout1_A (c : Dev nD) (i : grid1.Coords) (arg2 : Memref sig .tc .vmem S8x128x1024 .f32) (harg2 : arg2.IsWhole) (arg3 : Memref sig .tc .vmem S8x128x1 .f32) (harg3 : arg3.IsWhole) (arg4 : Memref sig .tc .vmem S8x1024 .f32) (harg4 : arg4.IsWhole) (arg5 : Memref sig .tc .vmem S8x1024 .f32) (harg5 : arg5.IsWhole) (hc0 : cond1_0 i) (hc1 : ¬cond1_1 i)
    (x0 : Vec F S8x128x1024 .f32) (x1 : Vec F S8x128x1 .f32) : Vec F S8x1024 .f32 :=
  VS1.read (Elt F) (VS1.writes (Elt F) VS1.junk (kernelRun1_A c i arg2 harg2 arg3 harg3 arg4 harg4 arg5 harg5 hc0 hc1 x0 x1).2.1)
/-- A first tile stores nothing into the output window: a placeholder nothing consults. -/
def out1_A_2 (c : Dev nD) (i : grid1.Coords) (arg2 : Memref sig .tc .vmem S8x128x1024 .f32) (harg2 : arg2.IsWhole) (arg3 : Memref sig .tc .vmem S8x128x1 .f32) (harg3 : arg3.IsWhole) (arg4 : Memref sig .tc .vmem S8x1024 .f32) (harg4 : arg4.IsWhole) (arg5 : Memref sig .tc .vmem S8x1024 .f32) (harg5 : arg5.IsWhole) (hc0 : cond1_0 i) (hc1 : ¬cond1_1 i)
    (x0 : Vec F S8x128x1024 .f32) (x1 : Vec F S8x128x1 .f32) : Vec F S8x1024 .f32 :=
  VO1_2.read (Elt F) (VO1_2.writes (Elt F) VO1_2.junk (kernelRun1_A c i arg2 harg2 arg3 harg3 arg4 harg4 arg5 harg5 hc0 hc1 x0 x1).1)

theorem scover1_B (c : Dev nD) (i : grid1.Coords) (arg2 : Memref sig .tc .vmem S8x128x1024 .f32) (harg2 : arg2.IsWhole) (arg3 : Memref sig .tc .vmem S8x128x1 .f32) (harg3 : arg3.IsWhole) (arg4 : Memref sig .tc .vmem S8x1024 .f32) (harg4 : arg4.IsWhole) (arg5 : Memref sig .tc .vmem S8x1024 .f32) (harg5 : arg5.IsWhole) (hc0 : ¬cond1_0 i) (hc1 : ¬cond1_1 i)
    (x0 : Vec F S8x128x1024 .f32) (x1 : Vec F S8x128x1 .f32) (xs0 : Vec F S8x1024 .f32) (y : S8x1024.Idx) :
    ∃ pc ∈ (kernelRun1_B c i arg2 harg2 arg3 harg3 arg4 harg4 arg5 harg5 hc0 hc1 x0 x1 xs0).2.1, y ∈ pc.1.set :=
  View.cover_of_wholeMem (kernelRun1_B c i arg2 harg2 arg3 harg3 arg4 harg4 arg5 harg5 hc0 hc1 x0 x1 xs0).2.1 (by sl_whole_mem) y
/-- What a middle tile leaves in the running sum's buffer, from what it found there. -/
def sout1_B (c : Dev nD) (i : grid1.Coords) (arg2 : Memref sig .tc .vmem S8x128x1024 .f32) (harg2 : arg2.IsWhole) (arg3 : Memref sig .tc .vmem S8x128x1 .f32) (harg3 : arg3.IsWhole) (arg4 : Memref sig .tc .vmem S8x1024 .f32) (harg4 : arg4.IsWhole) (arg5 : Memref sig .tc .vmem S8x1024 .f32) (harg5 : arg5.IsWhole) (hc0 : ¬cond1_0 i) (hc1 : ¬cond1_1 i)
    (x0 : Vec F S8x128x1024 .f32) (x1 : Vec F S8x128x1 .f32) (xs0 : Vec F S8x1024 .f32) : Vec F S8x1024 .f32 :=
  VS1.read (Elt F) (VS1.writes (Elt F) VS1.junk (kernelRun1_B c i arg2 harg2 arg3 harg3 arg4 harg4 arg5 harg5 hc0 hc1 x0 x1 xs0).2.1)
def out1_B_2 (c : Dev nD) (i : grid1.Coords) (arg2 : Memref sig .tc .vmem S8x128x1024 .f32) (harg2 : arg2.IsWhole) (arg3 : Memref sig .tc .vmem S8x128x1 .f32) (harg3 : arg3.IsWhole) (arg4 : Memref sig .tc .vmem S8x1024 .f32) (harg4 : arg4.IsWhole) (arg5 : Memref sig .tc .vmem S8x1024 .f32) (harg5 : arg5.IsWhole) (hc0 : ¬cond1_0 i) (hc1 : ¬cond1_1 i)
    (x0 : Vec F S8x128x1024 .f32) (x1 : Vec F S8x128x1 .f32) (xs0 : Vec F S8x1024 .f32) : Vec F S8x1024 .f32 :=
  VO1_2.read (Elt F) (VO1_2.writes (Elt F) VO1_2.junk (kernelRun1_B c i arg2 harg2 arg3 harg3 arg4 harg4 arg5 harg5 hc0 hc1 x0 x1 xs0).1)

theorem scover1_C (c : Dev nD) (i : grid1.Coords) (arg2 : Memref sig .tc .vmem S8x128x1024 .f32) (harg2 : arg2.IsWhole) (arg3 : Memref sig .tc .vmem S8x128x1 .f32) (harg3 : arg3.IsWhole) (arg4 : Memref sig .tc .vmem S8x1024 .f32) (harg4 : arg4.IsWhole) (arg5 : Memref sig .tc .vmem S8x1024 .f32) (harg5 : arg5.IsWhole) (hc0 : ¬cond1_0 i) (hc1 : cond1_1 i)
    (x0 : Vec F S8x128x1024 .f32) (x1 : Vec F S8x128x1 .f32) (xs0 : Vec F S8x1024 .f32) (y : S8x1024.Idx) :
    ∃ pc ∈ (kernelRun1_C c i arg2 harg2 arg3 harg3 arg4 harg4 arg5 harg5 hc0 hc1 x0 x1 xs0).2.1, y ∈ pc.1.set :=
  View.cover_of_wholeMem (kernelRun1_C c i arg2 harg2 arg3 harg3 arg4 harg4 arg5 harg5 hc0 hc1 x0 x1 xs0).2.1 (by sl_whole_mem) y
theorem cover1_C_2 (c : Dev nD) (i : grid1.Coords) (arg2 : Memref sig .tc .vmem S8x128x1024 .f32) (harg2 : arg2.IsWhole) (arg3 : Memref sig .tc .vmem S8x128x1 .f32) (harg3 : arg3.IsWhole) (arg4 : Memref sig .tc .vmem S8x1024 .f32) (harg4 : arg4.IsWhole) (arg5 : Memref sig .tc .vmem S8x1024 .f32) (harg5 : arg5.IsWhole) (hc0 : ¬cond1_0 i) (hc1 : cond1_1 i)
    (x0 : Vec F S8x128x1024 .f32) (x1 : Vec F S8x128x1 .f32) (xs0 : Vec F S8x1024 .f32) (y : S8x1024.Idx) :
    ∃ pc ∈ (kernelRun1_C c i arg2 harg2 arg3 harg3 arg4 harg4 arg5 harg5 hc0 hc1 x0 x1 xs0).1, y ∈ pc.1.set :=
  View.cover_of_wholeMem (kernelRun1_C c i arg2 harg2 arg3 harg3 arg4 harg4 arg5 harg5 hc0 hc1 x0 x1 xs0).1 (by sl_whole_mem) y
/-- What a last tile leaves in the running sum's buffer, -/
def sout1_C (c : Dev nD) (i : grid1.Coords) (arg2 : Memref sig .tc .vmem S8x128x1024 .f32) (harg2 : arg2.IsWhole) (arg3 : Memref sig .tc .vmem S8x128x1 .f32) (harg3 : arg3.IsWhole) (arg4 : Memref sig .tc .vmem S8x1024 .f32) (harg4 : arg4.IsWhole) (arg5 : Memref sig .tc .vmem S8x1024 .f32) (harg5 : arg5.IsWhole) (hc0 : ¬cond1_0 i) (hc1 : cond1_1 i)
    (x0 : Vec F S8x128x1024 .f32) (x1 : Vec F S8x128x1 .f32) (xs0 : Vec F S8x1024 .f32) : Vec F S8x1024 .f32 :=
  VS1.read (Elt F) (VS1.writes (Elt F) VS1.junk (kernelRun1_C c i arg2 harg2 arg3 harg3 arg4 harg4 arg5 harg5 hc0 hc1 x0 x1 xs0).2.1)
/-- and in the output window: the copy of the sum. -/
def out1_C_2 (c : Dev nD) (i : grid1.Coords) (arg2 : Memref sig .tc .vmem S8x128x1024 .f32) (harg2 : arg2.IsWhole) (arg3 : Memref sig .tc .vmem S8x128x1 .f32) (harg3 : arg3.IsWhole) (arg4 : Memref sig .tc .vmem S8x1024 .f32) (harg4 : arg4.IsWhole) (arg5 : Memref sig .tc .vmem S8x1024 .f32) (harg5 : arg5.IsWhole) (hc0 : ¬cond1_0 i) (hc1 : cond1_1 i)
    (x0 : Vec F S8x128x1024 .f32) (x1 : Vec F S8x128x1 .f32) (xs0 : Vec F S8x1024 .f32) : Vec F S8x1024 .f32 :=
  VO1_2.read (Elt F) (VO1_2.writes (Elt F) VO1_2.junk (kernelRun1_C c i arg2 harg2 arg3 harg3 arg4 harg4 arg5 harg5 hc0 hc1 x0 x1 xs0).1)

/-! ## Point by point -/

/-- (output window, running sum) after a first tile `t`, -/
def ptA (c : Dev nD) (t : Fin cfg1.N) (h0 : t.val % 8 = 0) (h1 : ¬t.val % 8 = 7) : Vec F S8x1024 .f32 × Vec F S8x1024 .f32 :=
  (out1_A_2 c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t),
   sout1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t))
/-- after a middle tile, from the running sum `xs` found, -/
def ptB (c : Dev nD) (t : Fin cfg1.N) (h0 : ¬t.val % 8 = 0) (h1 : ¬t.val % 8 = 7) (xs : Vec F S8x1024 .f32) : Vec F S8x1024 .f32 × Vec F S8x1024 .f32 :=
  (out1_B_2 c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) xs,
   sout1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) xs)
/-- and after a last tile. -/
def ptC (c : Dev nD) (t : Fin cfg1.N) (h0 : ¬t.val % 8 = 0) (h1 : t.val % 8 = 7) (xs : Vec F S8x1024 .f32) : Vec F S8x1024 .f32 × Vec F S8x1024 .f32 :=
  (out1_C_2 c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) xs,
   sout1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) xs)

/-- THE RECURSION: (output window, running sum) after the body at point `n`. -/
def outsAt1 (c : Dev nD) : (n : ℕ) → n < cfg1.N → Vec F S8x1024 .f32 × Vec F S8x1024 .f32
  | 0, hn => ptA V c ⟨0, hn⟩ (Nat.zero_mod _) (by show ¬ (0 % 8 = 7); omega)
  | n + 1, hn =>
    if h0 : (n + 1) % 8 = 0 then
      if h1 : (n + 1) % 8 = 7 then False.elim (by omega)
      else ptA V c ⟨n + 1, hn⟩ h0 h1
    else
      if h1 : (n + 1) % 8 = 7 then ptC V c ⟨n + 1, hn⟩ h0 h1 (outsAt1 c n (Nat.lt_of_succ_lt hn)).2
      else ptB V c ⟨n + 1, hn⟩ h0 h1 (outsAt1 c n (Nat.lt_of_succ_lt hn)).2

theorem outsAt1_A (c : Dev nD) (t : Fin cfg1.N) (h0 : t.val % 8 = 0) (h1 : ¬t.val % 8 = 7) :
    outsAt1 V c t.val t.isLt = ptA V c t h0 h1 := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = ptB V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 8 = 0) (h1 : t.val % 8 = 7) :
    outsAt1 V c t.val t.isLt = ptC V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-! ## The invariant between points -/

/-- Before the first point the plain invariant; before point n + 1 the running sum's buffer at what point n left, the
    other launch's staging buffers at anything, the generator register at some state. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1 fullShare ((outsAt1 V c n hn).2)) ∗ (∃ r, prngReg c r)) := rfl
theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1 fullShare ((outsAt1 V c (n - 1) (by omega)).2)) ∗ (∃ r, prngReg c r)) := by
  cases n with
  | zero => exact absurd rfl hz
  | succ n => rfl

/-! ## The proof data of the launch -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The per-point obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 8000000 in
/-- At any point: the inputs hold their blocks; the tile index says which run applies; the invariant hands the run the
    running sum at what the point before left (at anything before the very first point) and takes it back at this
    point's; off the last tile the output window goes back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  by_cases h0 : t.val % 8 = 0
  · by_cases h1 : t.val % 8 = 7
    · exfalso; omega
    · -- a first tile
      rw [Dat.leavesExact_idle (dat1 V c) 2 t (idleAt1_2 t (fun h => h1 ((hcond1_1 t).mp h))) (noFlush1_2 t (fun h => h1 ((hcond1_1 t).mp h)))]
      rw [outsAt1_A V c t h0 h1]
      unfold ptA sout1_A; (try dsimp only)
      by_cases hz : t.val = 0
      · rw [PhiS_castSucc V c t, PhiS_zero V c _ _ hz, PhiA1_eq]
        iintro ⟨⟨⟨R0, R1, R2, R3, R4, R5, R6, R7, R8, R9, HS0⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [R0 R1 R2 R3 R4 R5 R6 R7 R8 R9 HS0 Hg]
        · isplitl [R0 R1 R2 R3 R4 R5 R6 R7 R8 R9 HS0]
          ·
            isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            unfold owns; iexists _; isplitr
            swap; · iexact HS0
            ipureintro; exact View.read_writes_of_cover _ _ _ _ _ (scover1_A c _ _ _ _ _ _ _ _ _ _ _ _ _)
          iexact Hg
        isplitl [Ho]; · iexact Ho
        isplitl [H0]; · iexact H0
        isplitl [H1]; · iexact H1
        iexists _; iexact H2
      · rw [PhiS_castSucc V c t, PhiS_pos V c _ _ hz]
        iintro ⟨⟨⟨R0, R1, R2, R3, R4, R5, R6, R7, R8, R9, HS0⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [R0 R1 R2 R3 R4 R5 R6 R7 R8 R9 HS0 Hg]
        · isplitl [R0 R1 R2 R3 R4 R5 R6 R7 R8 R9 HS0]
          ·
            isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            unfold owns; iexists _; isplitr
            swap; · iexact HS0
            ipureintro; exact View.read_writes_of_cover _ _ _ _ _ (scover1_A c _ _ _ _ _ _ _ _ _ _ _ _ _)
          iexact Hg
        isplitl [Ho]; · iexact Ho
        isplitl [H0]; · iexact H0
        isplitl [H1]; · iexact H1
        iexists _; iexact H2
  · have hz : t.val ≠ 0 := fun e => h0 (by rw [e])
    by_cases h1 : t.val % 8 = 7
    · -- a last tile
      rw [show (dat1 V c).leavesExact 2 t = owns (c : Thread nD τ) (ms1_2 t) fullShare ((dat1 V c).after 2 t) from by
          unfold Dat.leavesExact; rw [liveAt1_2 t ((hcond1_1 t).mpr h1)], after1_2]
      rw [outsAt1_C V c t h0 h1]
      unfold ptC out1_C_2 sout1_C; (try dsimp only)
      rw [PhiS_castSucc V c t, PhiS_pos V c _ _ hz]
      iintro ⟨⟨⟨R0, R1, R2, R3, R4, R5, R6, R7, R8, R9, HS0⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [R0 R1 R2 R3 R4 R5 R6 R7 R8 R9 HS0 Hg]
      · isplitl [R0 R1 R2 R3 R4 R5 R6 R7 R8 R9 HS0]
        ·
          isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          unfold owns; iexists _; isplitr
          swap; · iexact HS0
          ipureintro; exact View.read_writes_of_cover _ _ _ _ _ (scover1_C c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · -- a middle tile
      rw [Dat.leavesExact_idle (dat1 V c) 2 t (idleAt1_2 t (fun h => h1 ((hcond1_1 t).mp h))) (noFlush1_2 t (fun h => h1 ((hcond1_1 t).mp h)))]
      rw [outsAt1_B V c t h0 h1]
      unfold ptB sout1_B; (try dsimp only)
      rw [PhiS_castSucc V c t, PhiS_pos V c _ _ hz]
      iintro ⟨⟨⟨R0, R1, R2, R3, R4, R5, R6, R7, R8, R9, HS0⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [R0 R1 R2 R3 R4 R5 R6 R7 R8 R9 HS0 Hg]
      · isplitl [R0 R1 R2 R3 R4 R5 R6 R7 R8 R9 HS0]
        ·
          isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          unfold owns; iexists _; isplitr
          swap; · iexact HS0
          ipureintro; exact View.read_writes_of_cover _ _ _ _ _ (scover1_B c _ _ _ _ _ _ _ _ _ _ _ _ _ _)
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

/-- Entering the launch: the plain invariant is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- Leaving it: after the last point the running sum's named contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 64 := N_1; omega
  rw [show (dat1 V c).Φ (Fin.last cfg1.N) = PhiS V c (Fin.last cfg1.N).val (Nat.le_of_lt_succ (Fin.last cfg1.N).isLt) from rfl,
    PhiS_pos V c _ _ hne, PhiA1_eq]
  iintro ⟨⟨R0, R1, R2, R3, R4, R5, R6, R7, R8, R9, HS0⟩, Hg⟩
  isplitl [R0 R1 R2 R3 R4 R5 R6 R7 R8 R9 HS0]
  ·
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    iexists _; iexact HS0
  iexact Hg

end

end Cert.KernelIdeal.Attn

end
-- ==== Proof.IdealRun.lean ====
/-
  The whole program as four stretches: host operations, the first launch, host operations, the second launch.
  The contents of the device's buffers are followed through the four: a stretch of host operations applies its
  operations; a launch replaces each of its windows' arrays by what its write-backs leave and touches nothing else.
  Every weakly fair execution terminates, and at the end EVERY buffer that outlives a launch holds what this fold
  says — from which both "the arguments are unchanged" and the values of the two results are read.
-/
import proofs.«118650_j25967372271699_1_alg».proof.Proof.IdealLogits
import proofs.«118650_j25967372271699_1_alg».proof.Proof.IdealContext
import proofs.«118650_j25967372271699_1_alg».proof.Proof.Gen.KernelIdeal.Regions

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at the five boundaries -/

/-- At launch. -/
abbrev W0 : Dev nD → Valuation τ sig (Elt F) := fun c b => (s₀ m ρ).mem ((c : Dev nD), b)
/-- After the first stretch of host operations (the first launch's entry). -/
abbrev W1 : Dev nD → Valuation τ sig (Elt F) := fun c => StableHlo.after hostOps0 (W0 m ρ c)
abbrev VV1 : (c : Dev nD) → (b : Ref sig .tc) → Buf (Elt F) ((c : Thread nD τ).loc b) := fun c b => W1 m ρ c b
/-- After the first launch: its arrays at what its write-backs leave, every other buffer as entered. -/
def W2 (c : Dev nD) : Valuation τ sig (Elt F) :=
  Pipeline.withArrays spec0 c (W1 m ρ c) fun w => (dat0 (VV1 m ρ) c).arrAt w cfg0.N
theorem W2_arr (c : Dev nD) (w : Fin cfg0.W) :
    W2 m ρ c (Proc.devRef .tc (Pipeline.arrRef spec0 w)) = (dat0 (VV1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev VV2 : (c : Dev nD) → (b : Ref sig .tc) → Buf (Elt F) ((c : Thread nD τ).loc b) := fun c b => W2 m ρ c b
theorem hF0 (c : Dev nD) (w : Fin cfg0.W) : (dat0 (VV1 m ρ) c).arrAt w cfg0.N = VV2 m ρ c (Pipeline.arrRef spec0 w) :=
  (W2_arr m ρ c w).symm
theorem hrest0 (c : Dev nD) : ∀ b, b ∉ Finset.univ.image (Pipeline.arrRef spec0) → VV2 m ρ c b = VV1 m ρ c b :=
  fun b hb => W2_of_ne m ρ c b fun w e => hb (Finset.mem_image.mpr ⟨w, Finset.mem_univ _, e⟩)

/-- After the second stretch of host operations (the second launch's entry). -/
abbrev W3 : Dev nD → Valuation τ sig (Elt F) := fun c => StableHlo.after hostOps1 (W2 m ρ c)
abbrev VV3 : (c : Dev nD) → (b : Ref sig .tc) → Buf (Elt F) ((c : Thread nD τ).loc b) := fun c b => W3 m ρ c b
/-- After the second launch. -/
def W4 (c : Dev nD) : Valuation τ sig (Elt F) :=
  Pipeline.withArrays spec1 c (W3 m ρ c) fun w => (dat1 (VV3 m ρ) c).arrAt w cfg1.N
theorem W4_arr (c : Dev nD) (w : Fin cfg1.W) :
    W4 m ρ c (Proc.devRef .tc (Pipeline.arrRef spec1 w)) = (dat1 (VV3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev VV4 : (c : Dev nD) → (b : Ref sig .tc) → Buf (Elt F) ((c : Thread nD τ).loc b) := fun c b => W4 m ρ c b
theorem hF1 (c : Dev nD) (w : Fin cfg1.W) : (dat1 (VV3 m ρ) c).arrAt w cfg1.N = VV4 m ρ c (Pipeline.arrRef spec1 w) :=
  (W4_arr m ρ c w).symm
theorem hrest1 (c : Dev nD) : ∀ b, b ∉ Finset.univ.image (Pipeline.arrRef spec1) → VV4 m ρ c b = VV3 m ρ c b :=
  fun b hb => W4_of_ne m ρ c b fun w e => hb (Finset.mem_image.mpr ⟨w, Finset.mem_univ _, e⟩)

/-! ## The arguments end as launched

No host operation writes an argument, and a launch either reads it through an input window or does not touch it. -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat1 (VV3 m ρ) c).arrAt_in 0 rfl _).trans (A_eq1 (VV3 m ρ) c 0))
    _ = W2 m ρ c (Proc.devRef .tc main_arg0) := StableHlo.after_of_writes_sub hostOps1 _ hostOps1_writes (by decide)
    _ = W1 m ρ c (Proc.devRef .tc main_arg0) := (W2_arr m ρ c 0).trans (((dat0 (VV1 m ρ) c).arrAt_in 0 rfl _).trans (A_eq0 (VV1 m ρ) c 0))
    _ = W0 m ρ c (Proc.devRef .tc main_arg0) := StableHlo.after_of_writes_sub hostOps0 _ hostOps0_writes (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

/-! ## The proof data of both launches, and what rides beside the buffers -/

abbrev admT : (p : Fin 2) → (pcfgs (F := F) p).Adm := fun p => (cfgs p).toPCfg_adm
/-- Each launch's proof data at its own entry contents. -/
def pdat : (p : Fin 2) → (c : Dev nD) → Dat τ (Elt F) Unit ℕ (UR sig nD τ) ℕ (Pipeline.pin (pcfgs (F := F)) admT p) c
  | ⟨0, _⟩ => fun c => dat0 (VV1 m ρ) c
  | ⟨1, _⟩ => fun c => dat1 (VV3 m ρ) c
abbrev 𝒱₀ : Variants := Variants.none
abbrev L : GSem nD τ sig → Finset Unit := fun _ => ∅
abbrev lv : GSem nD τ sig → Unit → ℕ := fun _ _ => 0
/-- The generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The launches as stretches -/

-- a library lemma stated over the pinned configuration unifies with the printed one only when unification may unfold
-- plain definitions in a metavariable's type
set_option backward.isDefEq.respectTransparency.types false in
def reg0 : Pipeline.RegionSeg (pcfgs (F := F)) admT (pdat m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VV1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (VV1 m ρ c)
  hentry c := by
    rw [Pipeline.ownSems0_none]
    have hsplit := Pipeline.arrays_of_unscopedBufs (p := 0) (pcfgs (F := F)) admT (pdat m ρ) launch0.win launch0.arr_whole c
      ((pdat m ρ 0 c).share_full fun _ => rfl) (VV1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdat m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admT (Ix := Unit) (Name := ℕ) (U := UR sig nD τ) (Lvl := ℕ)
      launch0.win launch0.arr_whole c (pdat m ρ) ((pdat m ρ 0 c).share_full fun _ => rfl)
      (VV1 m ρ c) (VV2 m ρ c) ((pdat m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
def reg1 : Pipeline.RegionSeg (pcfgs (F := F)) admT (pdat m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VV3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (VV3 m ρ c)
  hentry c := by
    rw [Pipeline.ownSems0_none]
    have hsplit := Pipeline.arrays_of_unscopedBufs (p := 1) (pcfgs (F := F)) admT (pdat m ρ) launch1.win launch1.arr_whole c
      ((pdat m ρ 1 c).share_full fun _ => rfl) (VV3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have hback : (pdat m ρ 1 c).Φ (Fin.last _) ⊢ (iprop(Pipeline.scopedRest spec1 c ∗ ∃ r, prngReg c r) : sProp 𝕄) := by
      have h := hout1 (VV3 m ρ) c
      unfold Pipeline.ΦA at h
      exact h
    iintro Hinv
    ihave H := hback $$ Hinv
    icases H with ⟨Hr, Hp⟩
    isplitl [Hp]; · iexact Hp
    isplitr; · iempintro
    iexact Hr
  hexit c := by
    have hjoin := Pipeline.unscopedBufs_of_arrays (p := 1) (pcfgs (F := F)) admT (Ix := Unit) (Name := ℕ) (U := UR sig nD τ) (Lvl := ℕ)
      launch1.win launch1.arr_whole c (pdat m ρ) ((pdat m ρ 1 c).share_full fun _ => rfl)
      (VV3 m ρ c) (VV4 m ρ c) ((pdat m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

abbrev segL : List (Pipeline.Seg (pcfgs (F := F)) admT (pdat m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segL m ρ) := (main_chain c).trans (by chain_rfl)

set_option backward.isDefEq.respectTransparency.types false in
/-- Every weakly fair execution of the program from `m` terminates without a fault, and in every final state each
    buffer that outlives a launch holds what the fold `W4` says. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) admT (pdat m ρ) () cellOf_inj emb₁ defs₀ 𝒱₀ L lv m ρ main (segL m ρ)
    (fun c Q => by rw [main_run m ρ c])
    (by simp only [segL, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show (iprop(StableHlo.held (c : Thread nD τ) (Pipeline.ucRefs τ sig) (W4 m ρ c) ∗ R c) : sProp 𝕄)
        ⊢ iprop(Tₙ m ρ c ∗ ∃ W, owes (c.tc : Thread nD τ) (0 : CellTallies nD τ sig Unit) W)
      iintro ⟨Hh, ⟨Hp, HO⟩⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c)⟩) (run_all m ρ)

end Cert.KernelIdeal.Attn

end
-- ==== Proof.IdealHost.lean ====
/-
  What the host operations around the two launches leave, at the ideal values.

  Before the first launch: the hidden projection (hidden times its weights, plus its bias spread down the rows), the
  two weight matrices in the narrower format (the same extended reals), and the two biases reshaped to one row.
  Between the launches: the softmax of the logits array over the 1024 positions — maximum, shift, exponential, sum,
  quotient — kept here as ONE function of the logits array.
-/
import proofs.«118650_j25967372271699_1_alg».proof.Proof.IdealRun
import Idealize.ShloMosaic.Lib.StableHlo.Run
import Idealize.ShloMosaic.PureOps.Ideal.Laws

noncomputable section

namespace Cert.KernelIdeal.Attn

open Cert.KernelIdeal Cert.KernelIdeal.Gen
open Idealize.ShloMosaic Idealize.ShloMosaic.TcCoe Idealize.SL.Sem

/-- The hidden projection: hidden times the second-layer weights, plus the bias spread down the rows. -/
def projH (x1 : FVec Ideal S64x1024 .f32) (x4 : FVec Ideal S1024x1024 .f32) (x5 : FVec Ideal S1024 .f32) : FVec Ideal S64x1024 .f32 :=
  addf (Host.dotGeneral (F := Ideal) dot_S64x1024_S1024x1024_S64x1024_1_0_0_1_n_n none x1 x4)
    (broadcastInDim S64x1024 ![0, 1] bcast_S1x1024_S64x1024_0_1 (broadcastInDim S1x1024 ![1] bcast_S1024_S1x1024_1 x5))

/-- The softmax over the 1024 positions, as the host spells it. -/
def softmaxT (x : FVec Ideal S64x1024x1 .f32) : FVec Ideal S64x1024x1 .f32 :=
  have mx : FVec Ideal S64x1 .f32 := maximumf (broadcastInDim S64x1 ![] bcast_S_S64x1 (constant (F := Ideal) S_ .f32 0xFF800000#32))
    (Host.reduce FloatOps.maximumf x (constant (F := Ideal) S_ .f32 0xFF800000#32) reducesTo_S64x1024x1_S64x1_d1 h_S_)
  have e : FVec Ideal S64x1024x1 .f32 := Host.exp (F := Ideal) (subf x
    (broadcastInDim S64x1024x1 ![0, 1, 2] bcast_S64x1x1_S64x1024x1_0_1_2 (broadcastInDim S64x1x1 ![0, 2] bcast_S64x1_S64x1x1_0_2 mx)))
  Host.divf (F := Ideal) e (broadcastInDim S64x1024x1 ![0, 1, 2] bcast_S64x1x1_S64x1024x1_0_1_2
    (broadcastInDim S64x1x1 ![0, 2] bcast_S64x1_S64x1x1_0_2
      (Host.reduceAdd (F := Ideal) e (constant (F := Ideal) S_ .f32 0x00000000#32) reducesTo_S64x1024x1_S64x1_d1 h_S_)))

variable (m : (ℓ : Loc nD τ sig) → Buf (Elt Ideal) ℓ) (ρ : Dev nD → PrngReg)

theorem VV1_v3 (c : Dev nD) : VV1 m ρ c main_v3
    = projH (m ((c : Thread nD τ).loc main_arg1)) (m ((c : Thread nD τ).loc main_arg4)) (m ((c : Thread nD τ).loc main_arg5)) := by
  show StableHlo.after hostOps0 (fun b => m (c, b)) (Proc.devRef .tc main_v3) = _
  after_results
  rfl

theorem VV1_v4 (c : Dev nD) : @Eq (FVec Ideal S1024x1024 .bf16) (VV1 m ρ c main_v4) (truncf .bf16 (m ((c : Thread nD τ).loc main_arg2) : FVec Ideal S1024x1024 .f32) bitsLt_bf16_f32) := by
  show StableHlo.after hostOps0 (fun b => m (c, b)) (Proc.devRef .tc main_v4) = _
  after_results

theorem VV1_v5 (c : Dev nD) : @Eq (FVec Ideal S1024x1 .bf16) (VV1 m ρ c main_v5) (truncf .bf16 (m ((c : Thread nD τ).loc main_arg6) : FVec Ideal S1024x1 .f32) bitsLt_bf16_f32) := by
  show StableHlo.after hostOps0 (fun b => m (c, b)) (Proc.devRef .tc main_v5) = _
  after_results

theorem VV1_v6 (c : Dev nD) : VV1 m ρ c main_v6 = shapeCast S1x1024 (m ((c : Thread nD τ).loc main_arg3) : FVec Ideal S1024 .f32) shapeCasts_S1024_S1x1024 := by
  show StableHlo.after hostOps0 (fun b => m (c, b)) (Proc.devRef .tc main_v6) = _
  after_results
  rfl

theorem VV1_v7 (c : Dev nD) : VV1 m ρ c main_v7 = shapeCast S1x1 (m ((c : Thread nD τ).loc main_arg7) : FVec Ideal S1 .f32) shapeCasts_S1_S1x1 := by
  show StableHlo.after hostOps0 (fun b => m (c, b)) (Proc.devRef .tc main_v7) = _
  after_results
  rfl

theorem VV3_v19 (c : Dev nD) : VV3 m ρ c main_v19 = softmaxT (W2 m ρ c (Proc.devRef .tc main_v8)) := by
  show StableHlo.after hostOps1 (W2 m ρ c) (Proc.devRef .tc main_v19) = _
  generalize W2 m ρ c = Wv
  after_results
  rfl

end Cert.KernelIdeal.Attn

end
-- ==== Proof.LibPlainDot.lean ====
/-
  A plain matrix product read at an index.

  For the dimension numbers of an `M x K` by `K x N` product (contract the left operand's columns with the right
  operand's rows, no batch axis) the contraction index is one coordinate `k < K`, the left operand is read at
  `(row, k)` and the right at `(k, column)`. So at the ideal instance both the matrix unit's product into a zero
  accumulator and the host's `dot_general` are, at output index `(r, c)`, the sum over `k` of `l (r, k) * r (k, c)`.
-/
import Idealize.ShloMosaic.PureOps.Ideal.Laws
import Idealize.ShloMosaic.Lib.ValueIdx

noncomputable section

namespace Cert.Lib.PlainDot

open Idealize.ShloMosaic Idealize.ShloMosaic.ValueIdx

variable (M K N : ℕ)

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product, over the contracted coordinate. -/
theorem sum_plain {α : Type*} [AddCommMonoid α] (f : (⟨2, ![M, K]⟩ : Shape).Idx → (⟨2, ![K, N]⟩ : Shape).Idx → α)
    (i : (⟨2, ![M, N]⟩ : Shape).Idx) :
    ∑ q : (DotDims.plain M K N).contr.Idx, f ((DotDims.plain M K N).lhsIdx i q) ((DotDims.plain M K N).rhsIdx i q)
      = ∑ k : Fin K, f (ix2 (i 0) k) (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs0 M K N _ _
      | ⟨1, _⟩ => exact ((DotDims.plain M K N).lhsIdx_val_of_single (cl := 1) rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single (cr := 0) rfl i _).trans hk
      | ⟨1, _⟩ => exact rhs1 M K N _ _)
  rw [el, er]
  rfl

/-- The matrix unit's product into a zero accumulator, at an index. -/
theorem matmul_zero_apply {φ₁ φ₂ : FTy} (prec : Option ContractPrecision)
    (l : FVec Ideal ⟨2, ![M, K]⟩ φ₁) (r : FVec Ideal ⟨2, ![K, N]⟩ φ₂) (i : (⟨2, ![M, N]⟩ : Shape).Idx) :
    FloatOps.matmul (DotDims.plain M K N) prec l r (constant ⟨2, ![M, N]⟩ .f32 0x00000000#32) i
      = ∑ k : Fin K, l (ix2 (i 0) k) * r (ix2 k (i 1)) := by
  rw [Ideal.matmul_constant_zero_apply]
  exact sum_plain M K N (fun a b => l a * r b) i

/-- The host's `dot_general`, at an index. -/
theorem dotGeneral_apply {φ₁ φ₂ : FTy} (prec : Option ContractPrecision) (sched : HostSchedule)
    (l : FVec Ideal ⟨2, ![M, K]⟩ φ₁) (r : FVec Ideal ⟨2, ![K, N]⟩ φ₂) (i : (⟨2, ![M, N]⟩ : Shape).Idx) :
    FloatOps.dotGeneral (DotDims.plain M K N) prec sched l r i
      = ∑ k : Fin K, l (ix2 (i 0) k) * r (ix2 k (i 1)) := by
  rw [Ideal.dotGeneral_apply]
  exact sum_plain M K N (fun a b => l a * r b) i

end Cert.Lib.PlainDot

end
-- ==== Proof.IdealLogitAt.lean ====
/-
  The first kernel's stored value, read at one position, at the ideal values.

  A block is 8 rows by 128 positions. The body flattens the block's [8, 128, 1024] features to a [1024, 1024] matrix
  (row 128 r + j is row r, position j), multiplies by the first weight matrix, unflattens, adds the bias row and the
  row's hidden projection, applies tanh, flattens again, multiplies by the [1024, 1] second weight, unflattens and adds
  the one-entry bias. Format changes are the identity on extended reals, a product into a zero accumulator is the plain
  sum over the contracted coordinate, and a reshape only renames positions. So at (r, j) the stored logit is

      (∑ u, tanh ((∑ d, x (r, j, d) · W1 (d, u)) + b1 (0, u) + h (r, u)) · V (u, 0)) + bV (0, 0).
-/
import proofs.«118650_j25967372271699_1_alg».proof.Proof.Gen.KernelIdeal.Skeleton
import proofs.«118650_j25967372271699_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Attn

open Cert.KernelIdeal Cert.KernelIdeal.Gen
open Idealize.ShloMosaic Idealize.ShloMosaic.ValueIdx

/-- Row `r`, position `j` of a block, as a row of the flattened block. -/
def flat (r : Fin 8) (j : Fin 128) : Fin 1024 := ⟨r.val * 128 + j.val, by omega⟩

variable {α : Type}

/-- Flattening [8, 128, K] to [1024, K] only renames: row 128 r + j is (r, j). -/
theorem flatten_apply {K : ℕ} (x : (⟨3, ![8, 128, K]⟩ : Shape).Idx → α)
    (h : (⟨3, ![8, 128, K]⟩ : Shape).ShapeCasts ⟨2, ![1024, K]⟩) (r : Fin 8) (j : Fin 128) (k : Fin K) :
    shapeCast ⟨2, ![1024, K]⟩ x h (ix2 (flat r j) k) = x (ix3 r j k) :=
  shapeCast_apply x h _ _ (by
    rw [Shape.rowMajor_val_three, Shape.rowMajor_val_two]
    rfl)

/-- and unflattening renames back. -/
theorem unflatten_apply {K : ℕ} (y : (⟨2, ![1024, K]⟩ : Shape).Idx → α)
    (h : (⟨2, ![1024, K]⟩ : Shape).ShapeCasts ⟨3, ![8, 128, K]⟩) (r : Fin 8) (j : Fin 128) (k : Fin K) :
    shapeCast ⟨3, ![8, 128, K]⟩ y h (ix3 r j k) = y (ix2 (flat r j) k) :=
  shapeCast_apply y h _ _ (by
    rw [Shape.rowMajor_val_three, Shape.rowMajor_val_two]
    rfl)

/-- A [1, K] row made [1, 1, K] and spread over the block reads the row's entry. -/
theorem row_spread_apply {K : ℕ} (v : (⟨2, ![1, K]⟩ : Shape).Idx → α)
    (h : (⟨2, ![1, K]⟩ : Shape).ShapeCasts ⟨3, ![1, 1, K]⟩) (hb : (⟨3, ![1, 1, K]⟩ : Shape).Broadcasts ⟨3, ![8, 128, K]⟩)
    (r : Fin 8) (j : Fin 128) (k : Fin K) :
    broadcastTo ⟨3, ![8, 128, K]⟩ (shapeCast ⟨3, ![1, 1, K]⟩ v h) hb (ix3 r j k) = v (ix2 0 k) := by
  rw [broadcastTo_apply _ hb (ix3 r j k) (ix3 (0 : Fin 1) (0 : Fin 1) k) (fun a => by
    match a with
    | ⟨0, _⟩ => rfl
    | ⟨1, _⟩ => rfl
    | ⟨2, _⟩ =>
      show k.val = if K = 1 then 0 else k.val
      split
      · have := k.isLt; omega
      · rfl)]
  exact shapeCast_ab_1ab_apply v h 0 0 k

/-- An [8, K] array made [8, 1, K] and spread over the 128 positions reads the row's entry. -/
theorem rows_spread_apply {K : ℕ} (v : (⟨2, ![8, K]⟩ : Shape).Idx → α)
    (h : (⟨2, ![8, K]⟩ : Shape).ShapeCasts ⟨3, ![8, 1, K]⟩) (hb : (⟨3, ![8, 1, K]⟩ : Shape).Broadcasts ⟨3, ![8, 128, K]⟩)
    (r : Fin 8) (j : Fin 128) (k : Fin K) :
    broadcastTo ⟨3, ![8, 128, K]⟩ (shapeCast ⟨3, ![8, 1, K]⟩ v h) hb (ix3 r j k) = v (ix2 r k) := by
  rw [broadcastTo_apply _ hb (ix3 r j k) (ix3 r (0 : Fin 1) k) (fun a => by
    match a with
    | ⟨0, _⟩ => rfl
    | ⟨1, _⟩ => rfl
    | ⟨2, _⟩ =>
      show k.val = if K = 1 then 0 else k.val
      split
      · have := k.isLt; omega
      · rfl)]
  exact shapeCast_apply v h _ _ (by
    rw [Shape.rowMajor_val_three, Shape.rowMajor_val_two]
    show r.val * K + k.val = (r.val * 1 + 0) * K + k.val
    rw [Nat.mul_one, Nat.add_zero])

/-- THE LOGIT at block position (r, j). -/
theorem logit_at (v0 : Vec Ideal S8x128x1024 .f32) (v3 : Vec Ideal S1024x1024 .bf16) (v7 : Vec Ideal S1x1024 .f32)
    (v12 : Vec Ideal S8x1024 .f32) (v20 : Vec Ideal S1024x1 .bf16) (v24 : Vec Ideal S1x1 .f32)
    (r : Fin 8) (j : Fin 128) (z : Fin 1) :
    k0_pay1 (F := Ideal) v0 v3 v7 v12 v20 v24 (ix3 r j z)
      = (∑ u : Fin 1024, Ideal.tanh (((∑ d : Fin 1024, v0 (ix3 r j d) * v3 (ix2 d u)) + v7 (ix2 0 u)) + v12 (ix2 r u)) * v20 (ix2 u 0))
        + v24 (ix2 0 0) := by
  have hz : z = 0 := Subsingleton.elim _ _
  subst hz
  unfold k0_pay1
  refine (addf_apply _ _ _).trans (congrArg₂ (· + ·) ?_ ?_)
  · -- the second product, unflattened
    refine (unflatten_apply _ _ r j 0).trans ?_
    refine (Cert.Lib.PlainDot.matmul_zero_apply 1024 1024 1 none _ _ (ix2 (flat r j) 0)).trans ?_
    refine Finset.sum_congr rfl fun u _ => congrArg₂ (· * ·) ?_ ?_
    · refine (flatten_apply _ _ r j u).trans ?_
      refine congrArg Ideal.tanh ?_
      refine (addf_apply _ _ _).trans (congrArg₂ (· + ·) ((addf_apply _ _ _).trans (congrArg₂ (· + ·) ?_ ?_)) ?_)
      · -- the first product, unflattened
        refine (unflatten_apply _ _ r j u).trans ?_
        refine (Cert.Lib.PlainDot.matmul_zero_apply 1024 1024 1024 none _ _ (ix2 (flat r j) u)).trans ?_
        refine Finset.sum_congr rfl fun d _ => congrArg₂ (· * ·) ?_ ?_
        · exact flatten_apply _ _ r j d
        · exact congrFun (shapeCast_self v3 _) _
      · exact (row_spread_apply _ _ _ r j u).trans (congrFun (shapeCast_self v7 _) _)
      · exact (rows_spread_apply _ _ _ r j u).trans (congrFun (shapeCast_self v12 _) _)
    · exact congrFun (shapeCast_self v20 _) _
  · exact (row_spread_apply _ _ _ r j 0).trans (congrFun (shapeCast_self v24 _) _)

end Cert.KernelIdeal.Attn

end
-- ==== Proof.RefAt.lean ====
/-
  The reference read at an index, at the ideal values.

  The logit at (b, l): the features' row (b, l) times the first weight matrix, plus the first bias, plus row b of the
  hidden projection, through tanh, times the second weight column, plus the second bias:

      (∑ u, tanh ((∑ d, x (b, l, d) · W1 (d, u)) + b1 (u) + h (b, u)) · V (u, 0)) + bV (0).

  The context at (b, d): from zero, the sum over the 1024 positions k of weight (b, k, 0) · x (b, k, d), the weights
  being the softmax stage's whole result (never opened here).
-/
import proofs.«118650_j25967372271699_1_alg».proof.Proof.Gen.ReferenceIdeal.Read

noncomputable section

namespace Cert.ReferenceIdeal.Attn

open Cert.ReferenceIdeal Cert.ReferenceIdeal.Gen Cert.ReferenceIdeal.Read
open Idealize.ShloMosaic Idealize.ShloMosaic.ValueIdx

/-- The logit at (b, l). -/
theorem logit_at (x0 : (⟨S64x1024x1024, .f32⟩ : BufTy).Contents (Elt Ideal)) (x1 : (⟨S64x1024, .f32⟩ : BufTy).Contents (Elt Ideal)) (x2 : (⟨S1024x1024, .f32⟩ : BufTy).Contents (Elt Ideal)) (x3 : (⟨S1024, .f32⟩ : BufTy).Contents (Elt Ideal)) (x4 : (⟨S1024x1024, .f32⟩ : BufTy).Contents (Elt Ideal)) (x5 : (⟨S1024, .f32⟩ : BufTy).Contents (Elt Ideal)) (x6 : (⟨S1024x1, .f32⟩ : BufTy).Contents (Elt Ideal)) (x7 : (⟨S1, .f32⟩ : BufTy).Contents (Elt Ideal)) (b : Fin 64) (l : Fin 1024) (z : Fin 1) :
    val_main_v15 (F := Ideal) x0 x1 x2 x3 x4 x5 x6 x7 (ix3 b l z)
      = (∑ u : Fin 1024, Ideal.tanh (((∑ d : Fin 1024, x0 (ix3 b l d) * x2 (ix2 d u)) + x3 (ix1 u))
            + val_main_v7 (F := Ideal) x1 x4 x5 (ix2 b u)) * x6 (ix2 u 0))
        + x7 (ix1 0) := by
  have hz : z = 0 := Subsingleton.elim _ _
  subst hz
  refine (val_main_v15_apply x0 x1 x2 x3 x4 x5 x6 x7 _).trans (congrArg₂ (· + ·) ?_ ?_)
  · refine (val_main_v12_apply x0 x1 x2 x3 x4 x5 x6 _).trans ?_
    refine Finset.sum_congr rfl fun u _ => ?_
    have el : lidx_main_v12 (ix3 b l (0 : Fin 1)) u = ix3 b l u := funext fun a => by match a with | ⟨0, _⟩ => rfl | ⟨1, _⟩ => rfl | ⟨2, _⟩ => rfl
    have er : ridx_main_v12 (ix3 b l (0 : Fin 1)) u = ix2 u (0 : Fin 1) := funext fun a => by match a with | ⟨0, _⟩ => rfl | ⟨1, _⟩ => rfl
    rw [el, er]
    refine congrArg (· * x6 (ix2 u 0)) ?_
    refine (val_main_v11_apply x0 x1 x2 x3 x4 x5 _).trans (congrArg Ideal.tanh ?_)
    refine (val_main_v10_apply x0 x1 x2 x3 x4 x5 _).trans (congrArg₂ (· + ·) ?_ ?_)
    · refine (val_main_v3_apply x0 x2 x3 _).trans (congrArg₂ (· + ·) ?_ ?_)
      · refine (val_main_v0_apply x0 x2 _).trans ?_
        refine Finset.sum_congr rfl fun d _ => ?_
        have el0 : lidx_main_v0 (ix3 b l u) d = ix3 b l d := funext fun a => by match a with | ⟨0, _⟩ => rfl | ⟨1, _⟩ => rfl | ⟨2, _⟩ => rfl
        have er0 : ridx_main_v0 (ix3 b l u) d = ix2 d u := funext fun a => by match a with | ⟨0, _⟩ => rfl | ⟨1, _⟩ => rfl
        rw [el0, er0]
      · refine (val_main_v2_apply x3 _).trans ((val_main_v1_apply x3 _).trans (congrArg x3 ?_))
        exact funext fun a => by match a with | ⟨0, _⟩ => rfl
    · refine (val_main_v9_apply x1 x4 x5 _).trans ((val_main_v8_apply x1 x4 x5 _).trans (congrArg (val_main_v7 (F := Ideal) x1 x4 x5) ?_))
      exact funext fun a => by match a with | ⟨0, _⟩ => rfl | ⟨1, _⟩ => rfl
  · refine (val_main_v14_apply x7 _).trans ((val_main_v13_apply x7 _).trans (congrArg x7 ?_))
    exact funext fun a => by match a with | ⟨0, _⟩ => rfl

/-- The context at (b, d). -/
theorem context_at (x0 : (⟨S64x1024x1024, .f32⟩ : BufTy).Contents (Elt Ideal)) (x1 : (⟨S64x1024, .f32⟩ : BufTy).Contents (Elt Ideal)) (x2 : (⟨S1024x1024, .f32⟩ : BufTy).Contents (Elt Ideal)) (x3 : (⟨S1024, .f32⟩ : BufTy).Contents (Elt Ideal)) (x4 : (⟨S1024x1024, .f32⟩ : BufTy).Contents (Elt Ideal)) (x5 : (⟨S1024, .f32⟩ : BufTy).Contents (Elt Ideal)) (x6 : (⟨S1024x1, .f32⟩ : BufTy).Contents (Elt Ideal)) (x7 : (⟨S1, .f32⟩ : BufTy).Contents (Elt Ideal)) (b : Fin 64) (d : Fin 1024) :
    val_main_v29 (F := Ideal) x0 x1 x2 x3 x4 x5 x6 x7 (ix2 b d)
      = Ideal.ofBits .f32 0x00000000#32
        + ∑ k : Fin 1024, val_main_v26 (F := Ideal) x0 x1 x2 x3 x4 x5 x6 x7 (ix3 b k 0) * x0 (ix3 b k d) := by
  refine (val_main_v29_apply x0 x1 x2 x3 x4 x5 x6 x7 _).trans (congrArg₂ (· + ·) rfl ?_)
  refine Finset.sum_congr rfl fun k _ => ?_
  have e : idx_main_v29 (ix2 b d) k = ix3 b k d := funext fun a => by match a with | ⟨0, _⟩ => rfl | ⟨1, _⟩ => rfl | ⟨2, _⟩ => rfl
  rw [e]
  refine (val_main_v28_apply x0 x1 x2 x3 x4 x5 x6 x7 _).trans (congrArg (· * x0 (ix3 b k d)) ?_)
  refine (val_main_v27_apply x0 x1 x2 x3 x4 x5 x6 x7 _).trans (congrArg (val_main_v26 (F := Ideal) x0 x1 x2 x3 x4 x5 x6 x7) ?_)
  exact funext fun a => by match a with | ⟨0, _⟩ => rfl | ⟨1, _⟩ => rfl | ⟨2, _⟩ => rfl

end Cert.ReferenceIdeal.Attn

end
-- ==== Proof.IdealLogitsArray.lean ====
/-
  The logits array after the first launch, at the ideal values: it IS the reference's logits.

  Point t of the 8 x 8 grid is row block t / 8, tile t % 8. Its feature block is rows [8 (t/8), +8), positions
  [128 (t%8), +128) of the features; its hidden-projection block the same 8 rows; the weights and biases whole. By the
  payload's formula the logit it stores at (r, j) is the reference's logit at row 8 (t/8) + r, position 128 (t%8) + j:
  same sums, same tanh. Every (row, position) lies in exactly one such block, so the written-back blocks make up the
  whole reference array.
-/
import proofs.«118650_j25967372271699_1_alg».proof.Proof.IdealHost
import proofs.«118650_j25967372271699_1_alg».proof.Proof.IdealLogitAt
import proofs.«118650_j25967372271699_1_alg».proof.Proof.RefAt
import Idealize.ShloMosaic.Lib.ValueLayout

set_option maxRecDepth 16384

noncomputable section

namespace Cert.KernelIdeal.Attn

open Cert.KernelIdeal Cert.KernelIdeal.Gen
open Idealize.ShloMosaic Idealize.ShloMosaic.TcCoe Idealize.SL.Sem Idealize.ShloMosaic.ValueIdx
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

/-- The block indices of the first launch's windows at point `t`, decided over the 64 points: features and output
    move with (t / 8, t % 8), the hidden projection with t / 8, the rest stay. -/
theorem idx0_facts : ∀ t : Fin cfg0.N,
    win0_0.index t (0 : Fin 3) = t.val / 8 ∧ win0_0.index t (1 : Fin 3) = t.val % 8 ∧ win0_0.index t (2 : Fin 3) = 0
    ∧ win0_1.index t (0 : Fin 2) = t.val / 8 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = t.val / 8 ∧ win0_6.index t (1 : Fin 3) = t.val % 8 ∧ win0_6.index t (2 : Fin 3) = 0 :=
  (by decide +kernel : ∀ t : Fin grid0.N, _)

variable (m : (ℓ : Loc nD τ sig) → Buf (Elt Ideal) ℓ) (ρ : Dev nD → PrngReg)

/-- The reference's logits, of this program's arguments. -/
abbrev Lref (c : Dev nD) : FVec Ideal S64x1024x1 .f32 :=
  Cert.ReferenceIdeal.Read.val_main_v15 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- Row and position of the array that block entry (r, j) of point `t` is. -/
def rowOf (t : Fin cfg0.N) (r : Fin 8) : Fin 64 := ⟨t.val / 8 * 8 + r.val, by have := t.isLt; have hN : cfg0.N = 64 := N_0; omega⟩
def posOf (t : Fin cfg0.N) (j : Fin 128) : Fin 1024 := ⟨t.val % 8 * 128 + j.val, by omega⟩

/-- WHAT POINT `t` WRITES BACK is block `t` of the reference's logits. -/
theorem flushed0_eq (c : Dev nD) (t : Fin cfg0.N) :
    (dat0 (VV1 m ρ) c).flushed 6 t = ((cfg0.win 6).blk t).view.read (Elt Ideal) (Lref m c) := by
  show (cfg0.win 6).cut (grid0.coords t) ((dat0 (VV1 m ρ) c).after 6 t) = _
  rw [after0_6]
  unfold out0_6
  rw [View.canon_unit_zero hz3]
  simp only [View.ld_unit_zero (S := S8x128x1024) hz3, View.ld_unit_zero (S := S8x1024) hz2, View.ld_unit_zero (S := S1024x1024) hz2,
    View.ld_unit_zero (S := S1x1024) hz2, View.ld_unit_zero (S := S1024x1) hz2, View.ld_unit_zero (S := S1x1) hz2]
  obtain ⟨a00, a01, a02, a10, a11, a20, a21, a30, a31, a40, a41, a50, a51, a60, a61, a62⟩ := idx0_facts t
  funext y
  obtain ⟨r, j, z, rfl⟩ : ∃ (r : Fin 8) (j : Fin 128) (z : Fin 1), y = ix3 r j z := ⟨y 0, y 1, y 2, eq_ix3 y⟩
  have hz0 : z = 0 := Subsingleton.elim _ _
  subst hz0
  -- the array entry this block entry is
  have he : ((cfg0.win 6).blk t).view.emb (ix3 r j (0 : Fin 1)) = ix3 (rowOf t r) (posOf t j) (0 : Fin 1) := by
    funext a; apply Fin.ext
    match a with
    | ⟨0, _⟩ => show win0_6.index t (0 : Fin 3) * 8 + 1 * r.val = t.val / 8 * 8 + r.val; rw [a60]; omega
    | ⟨1, _⟩ => show win0_6.index t (1 : Fin 3) * 128 + 1 * j.val = t.val % 8 * 128 + j.val; rw [a61]; omega
    | ⟨2, _⟩ => show win0_6.index t (2 : Fin 3) * 1 + 1 * 0 = 0; rw [a62]
  show k0_pay1 (F := Ideal) (iblk0 (VV1 m ρ) c 0 t) (iblk0 (VV1 m ρ) c 2 t) (iblk0 (VV1 m ρ) c 3 t) (iblk0 (VV1 m ρ) c 1 t)
      (iblk0 (VV1 m ρ) c 4 t) (iblk0 (VV1 m ρ) c 5 t) (ix3 r j 0)
    = Lref m c (((cfg0.win 6).blk t).view.emb (ix3 r j (0 : Fin 1)))
  rw [he]
  refine (logit_at _ _ _ _ _ _ r j 0).trans ?_
  refine Eq.trans ?_ (Cert.ReferenceIdeal.Attn.logit_at _ _ _ _ _ _ _ _ (rowOf t r) (posOf t j) 0).symm
  refine congrArg₂ (· + ·) (Finset.sum_congr rfl fun u _ => congrArg₂ (· * ·) (congrArg Ideal.tanh
    (congrArg₂ (· + ·) (congrArg₂ (· + ·) (Finset.sum_congr rfl fun d _ => congrArg₂ (· * ·) ?_ ?_) ?_) ?_)) ?_) ?_
  · -- a feature entry
    show (VV1 m ρ c main_arg0 : S64x1024x1024.Idx → EReal) (((cfg0.win 0).blk t).view.emb (ix3 r j d)) = m ((c : Thread nD τ).loc main_arg0) (ix3 (rowOf t r) (posOf t j) d)
    rw [show VV1 m ρ c main_arg0 = m ((c : Thread nD τ).loc main_arg0) from StableHlo.after_of_writes_sub hostOps0 _ hostOps0_writes (by decide)]
    refine congrArg _ (funext fun a => Fin.ext ?_)
    match a with
    | ⟨0, _⟩ => show win0_0.index t (0 : Fin 3) * 8 + 1 * r.val = t.val / 8 * 8 + r.val; rw [a00]; omega
    | ⟨1, _⟩ => show win0_0.index t (1 : Fin 3) * 128 + 1 * j.val = t.val % 8 * 128 + j.val; rw [a01]; omega
    | ⟨2, _⟩ => show win0_0.index t (2 : Fin 3) * 1024 + 1 * d.val = d.val; rw [a02]; omega
  · -- a first-weight entry
    show (VV1 m ρ c main_v4 : S1024x1024.Idx → EReal) (((cfg0.win 2).blk t).view.emb (ix2 d u)) = m ((c : Thread nD τ).loc main_arg2) (ix2 d u)
    rw [VV1_v4 m ρ c]
    show (m ((c : Thread nD τ).loc main_arg2) : S1024x1024.Idx → EReal) (((cfg0.win 2).blk t).view.emb (ix2 d u)) = _
    refine congrArg (m ((c : Thread nD τ).loc main_arg2) : S1024x1024.Idx → EReal) (funext fun a => Fin.ext ?_)
    match a with
    | ⟨0, _⟩ => show win0_2.index t (0 : Fin 2) * 1024 + 1 * d.val = d.val; rw [a20]; omega
    | ⟨1, _⟩ => show win0_2.index t (1 : Fin 2) * 1024 + 1 * u.val = u.val; rw [a21]; omega
  · -- a first-bias entry
    show (VV1 m ρ c main_v6 : S1x1024.Idx → EReal) (((cfg0.win 3).blk t).view.emb (ix2 (0 : Fin 1) u)) = m ((c : Thread nD τ).loc main_arg3) (ix1 u)
    rw [VV1_v6 m ρ c]
    have hi : ((cfg0.win 3).blk t).view.emb (ix2 (0 : Fin 1) u) = ix2 (0 : Fin 1) u := by
      funext a; apply Fin.ext
      match a with
      | ⟨0, _⟩ => show win0_3.index t (0 : Fin 2) * 1 + 1 * 0 = 0; rw [a30]
      | ⟨1, _⟩ => show win0_3.index t (1 : Fin 2) * 1024 + 1 * u.val = u.val; rw [a31]; omega
    rw [hi]
    exact shapeCast_a_1a_apply _ _ 0 u
  · -- a hidden-projection entry
    show (VV1 m ρ c main_v3 : S64x1024.Idx → EReal) (((cfg0.win 1).blk t).view.emb (ix2 r u))
      = Cert.ReferenceIdeal.Read.val_main_v7 (F := Ideal) (m ((c : Thread nD τ).loc main_arg1)) (m ((c : Thread nD τ).loc main_arg4)) (m ((c : Thread nD τ).loc main_arg5)) (ix2 (rowOf t r) u)
    rw [VV1_v3 m ρ c]
    refine congrArg₂ (fun (f : S64x1024.Idx → EReal) i => f i) rfl (funext fun a => Fin.ext ?_)
    match a with
    | ⟨0, _⟩ => show win0_1.index t (0 : Fin 2) * 8 + 1 * r.val = t.val / 8 * 8 + r.val; rw [a10]; omega
    | ⟨1, _⟩ => show win0_1.index t (1 : Fin 2) * 1024 + 1 * u.val = u.val; rw [a11]; omega
  · -- a second-weight entry
    show (VV1 m ρ c main_v5 : S1024x1.Idx → EReal) (((cfg0.win 4).blk t).view.emb (ix2 u (0 : Fin 1))) = m ((c : Thread nD τ).loc main_arg6) (ix2 u 0)
    rw [VV1_v5 m ρ c]
    show (m ((c : Thread nD τ).loc main_arg6) : S1024x1.Idx → EReal) (((cfg0.win 4).blk t).view.emb (ix2 u (0 : Fin 1))) = _
    refine congrArg (m ((c : Thread nD τ).loc main_arg6) : S1024x1.Idx → EReal) (funext fun a => Fin.ext ?_)
    match a with
    | ⟨0, _⟩ => show win0_4.index t (0 : Fin 2) * 1024 + 1 * u.val = u.val; rw [a40]; omega
    | ⟨1, _⟩ => show win0_4.index t (1 : Fin 2) * 1 + 1 * 0 = 0; rw [a41]
  · -- the second bias
    show (VV1 m ρ c main_v7 : S1x1.Idx → EReal) (((cfg0.win 5).blk t).view.emb (ix2 (0 : Fin 1) (0 : Fin 1))) = m ((c : Thread nD τ).loc main_arg7) (ix1 0)
    rw [VV1_v7 m ρ c]
    have hi : ((cfg0.win 5).blk t).view.emb (ix2 (0 : Fin 1) (0 : Fin 1)) = ix2 (0 : Fin 1) (0 : Fin 1) := by
      funext a; apply Fin.ext
      match a with
      | ⟨0, _⟩ => show win0_5.index t (0 : Fin 2) * 1 + 1 * 0 = 0; rw [a50]
      | ⟨1, _⟩ => show win0_5.index t (1 : Fin 2) * 1 + 1 * 0 = 0; rw [a51]
    rw [hi]
    exact shapeCast_a_1a_apply _ _ 0 0

/-- An index of the logits array is in point `t`'s block iff each coordinate is in the block's range. -/
theorem mem_blk0 (t : Fin cfg0.N) (i : S64x1024x1.Idx) :
    i ∈ ((cfg0.win 6).blk t).view.set ↔ ∀ a : Fin 3, win0_6.index t a * S8x128x1.size a ≤ (i a).val ∧ (i a).val < win0_6.index t a * S8x128x1.size a + S8x128x1.size a := by
  show i ∈ ((View.whole main_v8).slice (win0_6.rect t)).set ↔ _
  rw [View.set_slice_whole, Rect.mem_set_unit]
  exact Iff.rfl

/-- THE LOGITS ARRAY after the first launch is the reference's. -/
theorem logits_final (c : Dev nD) : (dat0 (VV1 m ρ) c).arrAt 6 cfg0.N = Lref m c :=
  (dat0 (VV1 m ρ) c).arrAt_eq_of_cover 6 (Lref m c) (fun t _ => flushed0_eq m ρ c t) fun i => by
    have h0 : (i 0).val < 64 := (i 0).isLt
    have h1 : (i 1).val < 1024 := (i 1).isLt
    have h2 : (i 2).val < 1 := (i 2).isLt
    have hN : cfg0.N = 64 := N_0
    let t : Fin cfg0.N := ⟨(i 0).val / 8 * 8 + (i 1).val / 128, by omega⟩
    have ht : t.val = (i 0).val / 8 * 8 + (i 1).val / 128 := rfl
    obtain ⟨a00, a01, a02, a10, a11, a20, a21, a30, a31, a40, a41, a50, a51, a60, a61, a62⟩ := idx0_facts t
    refine ⟨t, flush0_6 t, ?_⟩
    rw [mem_blk0]
    intro a
    match a with
    | ⟨0, _⟩ => show win0_6.index t (0 : Fin 3) * 8 ≤ (i 0).val ∧ (i 0).val < win0_6.index t (0 : Fin 3) * 8 + 8; rw [a60, ht]; omega
    | ⟨1, _⟩ => show win0_6.index t (1 : Fin 3) * 128 ≤ (i 1).val ∧ (i 1).val < win0_6.index t (1 : Fin 3) * 128 + 128; rw [a61, ht]; omega
    | ⟨2, _⟩ => show win0_6.index t (2 : Fin 3) * 1 ≤ (i 2).val ∧ (i 2).val < win0_6.index t (2 : Fin 3) * 1 + 1; rw [a62]; omega

/-- So after the first launch `main_v8` holds the reference's logits, -/
theorem W2_v8 (c : Dev nD) : W2 m ρ c (Proc.devRef .tc main_v8) = Lref m c :=
  (W2_arr m ρ c 6).trans (logits_final m ρ c)

/-- and after the host's softmax `main_v19` holds the reference's weights. -/
theorem VV3_v19_ref (c : Dev nD) : VV3 m ρ c main_v19
    = Cert.ReferenceIdeal.Read.val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [VV3_v19 m ρ c, W2_v8 m ρ c]
  rfl

end Cert.KernelIdeal.Attn

end
-- ==== Proof.IdealContextReads.lean ====
/-
  What the second launch's three kinds of point leave, as plain terms.

  Each run kept its stores as a list; read back, a buffer whose last store was whole holds that store's value, and a
  load made after a whole store reads what was stored. So: a first tile leaves in the running sum's buffer the tile's
  weighted sum added to the zero splat; a middle or last tile leaves it added to what was found; and a last tile's
  output window holds a copy of that same value.
-/
import proofs.«118650_j25967372271699_1_alg».proof.Proof.IdealContext
import Idealize.ShloMosaic.Lib.Pipeline.Value
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic Idealize.SL.Sem

variable {F : FTy → Type} [FloatOps F]

theorem hzz : (![0, 0] : Fin 2 → Nat) = fun _ => 0 := funext fun a => by fin_cases a <;> rfl
theorem hzz3 : (![0, 0, 0] : Fin 3 → Nat) = fun _ => 0 := funext fun a => by fin_cases a <;> rfl

/-- A first tile: the tile's weighted sum added to zero. -/
theorem soutA_eq (c : Dev nD) (i : grid1.Coords) (arg2 : Memref sig .tc .vmem S8x128x1024 .f32) (harg2 : arg2.IsWhole) (arg3 : Memref sig .tc .vmem S8x128x1 .f32) (harg3 : arg3.IsWhole) (arg4 : Memref sig .tc .vmem S8x1024 .f32) (harg4 : arg4.IsWhole) (arg5 : Memref sig .tc .vmem S8x1024 .f32) (harg5 : arg5.IsWhole) (hc0 : cond1_0 i) (hc1 : ¬cond1_1 i) (x0 : Vec F S8x128x1024 .f32) (x1 : Vec F S8x128x1 .f32) :
    sout1_A c i arg2 harg2 arg3 harg3 arg4 harg4 arg5 harg5 hc0 hc1 x0 x1 = k1_pay2 x0 x1 (k1_pay1 (F := F)) := by
  unfold sout1_A
  rw [View.read_writes_eq_canon _ _ _ (scover1_A c i arg2 harg2 arg3 harg3 arg4 harg4 arg5 harg5 hc0 hc1 x0 x1)]
  unfold kernelRun1_A
  dsimp only
  try sl_unfold_words
  rw [View.canon_cons_unit_zero hzz, View.readCov_unit_zero (S := S8x1024) _ hzz]
  simp only [View.readAt_eq_ld, harg2.read_unread, harg3.read_unread, View.ld_unit_zero (S := S8x128x1024) hzz3, View.ld_unit_zero (S := S8x128x1) hzz3, View.ld_unit_zero (S := S8x1024) hzz]

/-- A middle tile: added to what was found. -/
theorem soutB_eq (c : Dev nD) (i : grid1.Coords) (arg2 : Memref sig .tc .vmem S8x128x1024 .f32) (harg2 : arg2.IsWhole) (arg3 : Memref sig .tc .vmem S8x128x1 .f32) (harg3 : arg3.IsWhole) (arg4 : Memref sig .tc .vmem S8x1024 .f32) (harg4 : arg4.IsWhole) (arg5 : Memref sig .tc .vmem S8x1024 .f32) (harg5 : arg5.IsWhole) (hc0 : ¬cond1_0 i) (hc1 : ¬cond1_1 i) (x0 : Vec F S8x128x1024 .f32) (x1 : Vec F S8x128x1 .f32) (xs0 : Vec F S8x1024 .f32) :
    sout1_B c i arg2 harg2 arg3 harg3 arg4 harg4 arg5 harg5 hc0 hc1 x0 x1 xs0 = k1_pay2 x0 x1 xs0 := by
  unfold sout1_B
  rw [View.read_writes_eq_canon _ _ _ (scover1_B c i arg2 harg2 arg3 harg3 arg4 harg4 arg5 harg5 hc0 hc1 x0 x1 xs0)]
  unfold kernelRun1_B
  dsimp only
  try sl_unfold_words
  rw [View.canon_unit_zero hzz]
  simp only [View.readAt_eq_ld, harg2.read_unread, harg3.read_unread, harg5.read_unread, View.ld_unit_zero (S := S8x128x1024) hzz3, View.ld_unit_zero (S := S8x128x1) hzz3, View.ld_unit_zero (S := S8x1024) hzz]

/-- A last tile: the same in the running sum's buffer, -/
theorem soutC_eq (c : Dev nD) (i : grid1.Coords) (arg2 : Memref sig .tc .vmem S8x128x1024 .f32) (harg2 : arg2.IsWhole) (arg3 : Memref sig .tc .vmem S8x128x1 .f32) (harg3 : arg3.IsWhole) (arg4 : Memref sig .tc .vmem S8x1024 .f32) (harg4 : arg4.IsWhole) (arg5 : Memref sig .tc .vmem S8x1024 .f32) (harg5 : arg5.IsWhole) (hc0 : ¬cond1_0 i) (hc1 : cond1_1 i) (x0 : Vec F S8x128x1024 .f32) (x1 : Vec F S8x128x1 .f32) (xs0 : Vec F S8x1024 .f32) :
    sout1_C c i arg2 harg2 arg3 harg3 arg4 harg4 arg5 harg5 hc0 hc1 x0 x1 xs0 = k1_pay2 x0 x1 xs0 := by
  unfold sout1_C
  rw [View.read_writes_eq_canon _ _ _ (scover1_C c i arg2 harg2 arg3 harg3 arg4 harg4 arg5 harg5 hc0 hc1 x0 x1 xs0)]
  unfold kernelRun1_C
  dsimp only
  try sl_unfold_words
  rw [View.canon_unit_zero hzz]
  simp only [View.readAt_eq_ld, harg2.read_unread, harg3.read_unread, harg5.read_unread, View.ld_unit_zero (S := S8x128x1024) hzz3, View.ld_unit_zero (S := S8x128x1) hzz3, View.ld_unit_zero (S := S8x1024) hzz]

/-- and its copy in the output window. -/
theorem outC_eq (c : Dev nD) (i : grid1.Coords) (arg2 : Memref sig .tc .vmem S8x128x1024 .f32) (harg2 : arg2.IsWhole) (arg3 : Memref sig .tc .vmem S8x128x1 .f32) (harg3 : arg3.IsWhole) (arg4 : Memref sig .tc .vmem S8x1024 .f32) (harg4 : arg4.IsWhole) (arg5 : Memref sig .tc .vmem S8x1024 .f32) (harg5 : arg5.IsWhole) (hc0 : ¬cond1_0 i) (hc1 : cond1_1 i) (x0 : Vec F S8x128x1024 .f32) (x1 : Vec F S8x128x1 .f32) (xs0 : Vec F S8x1024 .f32) :
    out1_C_2 c i arg2 harg2 arg3 harg3 arg4 harg4 arg5 harg5 hc0 hc1 x0 x1 xs0 = k1_pay2 x0 x1 xs0 := by
  unfold out1_C_2
  rw [View.read_writes_eq_canon _ _ _ (cover1_C_2 c i arg2 harg2 arg3 harg3 arg4 harg4 arg5 harg5 hc0 hc1 x0 x1 xs0)]
  unfold kernelRun1_C
  dsimp only
  try sl_unfold_words
  rw [View.canon_unit_zero hzz, View.readCov_unit_zero (S := S8x1024) _ hzz]
  simp only [View.readAt_eq_ld, harg2.read_unread, harg3.read_unread, harg5.read_unread, View.ld_unit_zero (S := S8x128x1024) hzz3, View.ld_unit_zero (S := S8x128x1) hzz3, View.ld_unit_zero (S := S8x1024) hzz]

end Cert.KernelIdeal.Attn

end
-- ==== Proof.IdealTileSumAt.lean ====
/-
  The second kernel's two stored values, read at one entry, at the ideal values.

  The zero splat is 0 everywhere. The other value is what the running sum's buffer held, plus the tile's weighted sum:
  the [8, 128, 1] weights are spread along the 1024 features, multiplied into the [8, 128, 1024] features, and summed
  over the tile's 128 positions (a sum from a zero start, so just the sum). At (r, d):

      found (r, d) + ∑ j, x (r, j, d) · w (r, j, 0).
-/
import proofs.«118650_j25967372271699_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Attn

open Cert.KernelIdeal Cert.KernelIdeal.Gen
open Idealize.ShloMosaic Idealize.ShloMosaic.ValueIdx

/-- The zero splat. -/
theorem zero_at (i : S8x1024.Idx) : k1_pay1 (F := Ideal) i = 0 := by
  unfold k1_pay1
  refine (congrFun (shapeCast_self _ _) i).trans ?_
  exact Ideal.ofBits_zero_f32

/-- The found sum plus the tile's weighted sum. -/
theorem tile_sum_at (v3 : Vec Ideal S8x128x1024 .f32) (v4 : Vec Ideal S8x128x1 .f32) (v9 : Vec Ideal S8x1024 .f32)
    (r : Fin 8) (d : Fin 1024) :
    k1_pay2 (F := Ideal) v3 v4 v9 (ix2 r d) = v9 (ix2 r d) + ∑ j : Fin 128, v3 (ix3 r j d) * v4 (ix3 r j 0) := by
  unfold k1_pay2
  refine (congrFun (shapeCast_self _ _) _).trans ?_
  refine (addf_apply _ _ _).trans (congrArg (v9 (ix2 r d) + ·) ?_)
  refine (Ideal.multiReduction_add_single _ _ reduces_S8x128x1024_S8x1024 (.inl rfl) rfl (ix2 r d)).trans ?_
  refine Finset.sum_congr rfl fun j _ => ?_
  have e : reduces_S8x128x1024_S8x1024.lift (ix2 r d) j = ix3 r j d :=
    funext fun a => Fin.ext (by match a with | ⟨0, _⟩ => rfl | ⟨1, _⟩ => rfl | ⟨2, _⟩ => rfl)
  rw [e]
  refine (mulf_apply _ _ _).trans (congrArg (v3 (ix3 r j d) * ·) ?_)
  refine (broadcastTo_apply _ _ (ix3 r j d) (ix3 r j (0 : Fin 1)) (fun a => by
    match a with
    | ⟨0, _⟩ => rfl
    | ⟨1, _⟩ => rfl
    | ⟨2, _⟩ => rfl)).trans ?_
  exact congrFun (shapeCast_self v4 _) _

end Cert.KernelIdeal.Attn

end
-- ==== Proof.IdealContextArray.lean ====
/-
  The context array after the second launch, at the ideal values: it IS the reference's context.

  Write term (b, d, k) for feature (b, k, d) times weight (b, k, 0). Point t is row block t / 8, tile t % 8; its two
  blocks are rows [8 (t/8), +8) and positions [128 (t%8), +128) of the features and of the weights. By induction on the
  point, after point t the running sum at (r, d) is the sum of terms k < 128 (t%8 + 1) of row 8 (t/8) + r: a first tile
  starts from zero, every other tile adds its 128 terms to what the point before left, and the point before is the
  previous tile of the same row block. On a last tile that is all 1024 terms, and the copy written back is the
  reference's context at that row — the reference sums weight · feature from zero, the same terms with the factors
  in the other order. The last tiles' blocks cover every row.
-/
import proofs.«118650_j25967372271699_1_alg».proof.Proof.IdealLogitsArray
import proofs.«118650_j25967372271699_1_alg».proof.Proof.IdealContextReads
import proofs.«118650_j25967372271699_1_alg».proof.Proof.IdealTileSumAt

set_option maxRecDepth 16384

noncomputable section

namespace Cert.KernelIdeal.Attn

open Cert.KernelIdeal Cert.KernelIdeal.Gen
open Idealize.ShloMosaic Idealize.ShloMosaic.TcCoe Idealize.SL.Sem Idealize.ShloMosaic.ValueIdx
open Idealize.ShloMosaic.Pipeline (Dat)

/-- The block indices of the second launch's windows at point `t`, decided over the 64 points. -/
theorem idx1_facts : ∀ t : Fin cfg1.N,
    win1_0.index t (0 : Fin 3) = t.val / 8 ∧ win1_0.index t (1 : Fin 3) = t.val % 8 ∧ win1_0.index t (2 : Fin 3) = 0
    ∧ win1_1.index t (0 : Fin 3) = t.val / 8 ∧ win1_1.index t (1 : Fin 3) = t.val % 8 ∧ win1_1.index t (2 : Fin 3) = 0
    ∧ win1_2.index t (0 : Fin 2) = t.val / 8 ∧ win1_2.index t (1 : Fin 2) = 0 :=
  (by decide +kernel : ∀ t : Fin grid1.N, _)

/-- Term k of row b at feature d: feature times weight; zero outside the arrays (so that sums over ranges make sense). -/
def term (A : FVec Ideal S64x1024x1024 .f32) (Wt : FVec Ideal S64x1024x1 .f32) (b d k : ℕ) : EReal :=
  if h : b < 64 ∧ k < 1024 ∧ d < 1024 then A (ix3 ⟨b, h.1⟩ ⟨k, h.2.1⟩ ⟨d, h.2.2⟩) * Wt (ix3 ⟨b, h.1⟩ ⟨k, h.2.1⟩ (0 : Fin 1)) else 0

section
variable (V : (c : Dev nD) → (b : Ref sig .tc) → Buf (Elt Ideal) ((c : Thread nD τ).loc b))

/-- A tile's weighted sum at (r, d) is 128 consecutive terms of its row. -/
theorem tile_eq (c : Dev nD) (t : Fin cfg1.N) (r : Fin 8) (d : Fin 1024)
    (x0 : Vec Ideal S8x128x1024 .f32) (x1 : Vec Ideal S8x128x1 .f32) (hx0 : x0 = iblk1 V c 0 t) (hx1 : x1 = iblk1 V c 1 t) :
    ∑ j : Fin 128, x0 (ix3 r j d) * x1 (ix3 r j 0)
      = ∑ k ∈ Finset.range 128, term (V c main_arg0) (V c main_v19) (t.val / 8 * 8 + r.val) d.val (t.val % 8 * 128 + k) := by
  subst hx0; subst hx1
  have hN : cfg1.N = 64 := N_1
  have ht : t.val < 64 := by have := t.isLt; omega
  obtain ⟨b00, b01, b02, b10, b11, b12, b20, b21⟩ := idx1_facts t
  rw [← Fin.sum_univ_eq_sum_range (fun k => term (V c main_arg0) (V c main_v19) (t.val / 8 * 8 + r.val) d.val (t.val % 8 * 128 + k)) 128]
  refine Finset.sum_congr rfl fun j _ => ?_
  have hb : t.val / 8 * 8 + r.val < 64 ∧ t.val % 8 * 128 + j.val < 1024 ∧ d.val < 1024 := ⟨by omega, by omega, d.isLt⟩
  unfold term
  rw [dif_pos hb]
  refine congrArg₂ (· * ·) ?_ ?_
  · show (V c main_arg0 : S64x1024x1024.Idx → EReal) (((cfg1.win 0).blk t).view.emb (ix3 r j d)) = _
    refine congrArg (V c main_arg0 : S64x1024x1024.Idx → EReal) (funext fun a => Fin.ext ?_)
    match a with
    | ⟨0, _⟩ => show win1_0.index t (0 : Fin 3) * 8 + 1 * r.val = t.val / 8 * 8 + r.val; rw [b00]; omega
    | ⟨1, _⟩ => show win1_0.index t (1 : Fin 3) * 128 + 1 * j.val = t.val % 8 * 128 + j.val; rw [b01]; omega
    | ⟨2, _⟩ => show win1_0.index t (2 : Fin 3) * 1024 + 1 * d.val = d.val; rw [b02]; omega
  · show (V c main_v19 : S64x1024x1.Idx → EReal) (((cfg1.win 1).blk t).view.emb (ix3 r j (0 : Fin 1))) = _
    refine congrArg (V c main_v19 : S64x1024x1.Idx → EReal) (funext fun a => Fin.ext ?_)
    match a with
    | ⟨0, _⟩ => show win1_1.index t (0 : Fin 3) * 8 + 1 * r.val = t.val / 8 * 8 + r.val; rw [b10]; omega
    | ⟨1, _⟩ => show win1_1.index t (1 : Fin 3) * 128 + 1 * j.val = t.val % 8 * 128 + j.val; rw [b11]; omega
    | ⟨2, _⟩ => show win1_1.index t (2 : Fin 3) * 1 + 1 * 0 = 0; rw [b12]

/-- THE RUNNING SUM after point `t`: the first 128 (t%8 + 1) terms of row 8 (t/8) + r. -/
theorem acc_eq (c : Dev nD) : ∀ (n : ℕ) (t : Fin cfg1.N), t.val = n → ∀ (r : Fin 8) (d : Fin 1024),
    (outsAt1 V c t.val t.isLt).2 (ix2 r d)
      = ∑ k ∈ Finset.range ((t.val % 8 + 1) * 128), term (V c main_arg0) (V c main_v19) (t.val / 8 * 8 + r.val) d.val k := by
  intro n
  induction n with
  | zero =>
    intro t ht r d
    have h0 : t.val % 8 = 0 := by rw [ht]
    have h1 : ¬t.val % 8 = 7 := by rw [ht]; decide
    rw [outsAt1_A V c t h0 h1]
    unfold ptA
    dsimp only
    rw [soutA_eq]
    refine (tile_sum_at (iblk1 V c 0 t) (iblk1 V c 1 t) _ r d).trans ?_
    rw [zero_at, zero_add, tile_eq V c t r d _ _ rfl rfl, h0]
    exact Finset.sum_congr rfl fun k _ => by rw [Nat.zero_mul, Nat.zero_add]
  | succ n ih =>
    intro t ht r d
    by_cases h0 : t.val % 8 = 0
    · have h1 : ¬t.val % 8 = 7 := by omega
      rw [outsAt1_A V c t h0 h1]
      unfold ptA
      dsimp only
      rw [soutA_eq]
      refine (tile_sum_at (iblk1 V c 0 t) (iblk1 V c 1 t) _ r d).trans ?_
      rw [zero_at, zero_add, tile_eq V c t r d _ _ rfl rfl, h0]
      exact Finset.sum_congr rfl fun k _ => by rw [Nat.zero_mul, Nat.zero_add]
    · have hprev := ih ⟨t.val - 1, Nat.lt_of_le_of_lt (Nat.sub_le _ _) t.isLt⟩ (by show t.val - 1 = n; omega) r d
      have e1 : (t.val - 1) % 8 + 1 = t.val % 8 := by omega
      have e2 : (t.val - 1) / 8 = t.val / 8 := by omega
      have hprev' : (outsAt1 V c (t.val - 1) (Nat.lt_of_le_of_lt (Nat.sub_le _ _) t.isLt)).2 (ix2 r d)
          = ∑ k ∈ Finset.range (t.val % 8 * 128), term (V c main_arg0) (V c main_v19) (t.val / 8 * 8 + r.val) d.val k := by
        refine hprev.trans ?_
        show ∑ k ∈ Finset.range (((t.val - 1) % 8 + 1) * 128), term (V c main_arg0) (V c main_v19) ((t.val - 1) / 8 * 8 + r.val) d.val k = _
        rw [e1, e2]
      have hsplit : (t.val % 8 + 1) * 128 = t.val % 8 * 128 + 128 := by omega
      by_cases h1 : t.val % 8 = 7
      · rw [outsAt1_C V c t h0 h1]
        unfold ptC
        dsimp only
        rw [soutC_eq]
        refine (tile_sum_at (iblk1 V c 0 t) (iblk1 V c 1 t) _ r d).trans ?_
        rw [hprev', tile_eq V c t r d _ _ rfl rfl, hsplit, Finset.sum_range_add]
      · rw [outsAt1_B V c t h0 h1]
        unfold ptB
        dsimp only
        rw [soutB_eq]
        refine (tile_sum_at (iblk1 V c 0 t) (iblk1 V c 1 t) _ r d).trans ?_
        rw [hprev', tile_eq V c t r d _ _ rfl rfl, hsplit, Finset.sum_range_add]

/-- On a last tile the output window holds the same as the running sum's buffer. -/
theorem out_last_eq (c : Dev nD) (t : Fin cfg1.N) (h0 : ¬t.val % 8 = 0) (h1 : t.val % 8 = 7) :
    (outsAt1 V c t.val t.isLt).1 = (outsAt1 V c t.val t.isLt).2 := by
  rw [outsAt1_C V c t h0 h1]
  unfold ptC
  dsimp only
  rw [outC_eq, soutC_eq]

/-- All 1024 terms of a row, as the sum over the positions. -/
theorem row_sum (A : FVec Ideal S64x1024x1024 .f32) (Wt : FVec Ideal S64x1024x1 .f32) (b : Fin 64) (d : Fin 1024) :
    ∑ k ∈ Finset.range 1024, term A Wt b.val d.val k = ∑ k : Fin 1024, A (ix3 b k d) * Wt (ix3 b k 0) := by
  rw [← Fin.sum_univ_eq_sum_range (fun k => term A Wt b.val d.val k) 1024]
  refine Finset.sum_congr rfl fun k _ => ?_
  unfold term
  rw [dif_pos ⟨b.isLt, k.isLt, d.isLt⟩]

end

variable (m : (ℓ : Loc nD τ sig) → Buf (Elt Ideal) ℓ) (ρ : Dev nD → PrngReg)

/-- The reference's context, of this program's arguments. -/
abbrev Cref (c : Dev nD) : FVec Ideal S64x1024 .f32 :=
  Cert.ReferenceIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- The features as the second launch finds them are the argument. -/
theorem VV3_arg0 (c : Dev nD) : VV3 m ρ c main_arg0 = m ((c : Thread nD τ).loc main_arg0) :=
  calc W3 m ρ c (Proc.devRef .tc main_arg0)
    _ = W2 m ρ c (Proc.devRef .tc main_arg0) := StableHlo.after_of_writes_sub hostOps1 _ hostOps1_writes (by decide)
    _ = W1 m ρ c (Proc.devRef .tc main_arg0) := (W2_arr m ρ c 0).trans (((dat0 (VV1 m ρ) c).arrAt_in 0 rfl _).trans (A_eq0 (VV1 m ρ) c 0))
    _ = W0 m ρ c (Proc.devRef .tc main_arg0) := StableHlo.after_of_writes_sub hostOps0 _ hostOps0_writes (by decide)
    _ = m ((c : Thread nD τ).loc main_arg0) := rfl

/-- WHAT A LAST TILE WRITES BACK is its block of the reference's context. -/
theorem flushed1_eq (c : Dev nD) (t : Fin cfg1.N) (hf : (cfg1.win 2).flush t = true) :
    (dat1 (VV3 m ρ) c).flushed 2 t = ((cfg1.win 2).blk t).view.read (Elt Ideal) (Cref m c) := by
  have h1 : t.val % 8 = 7 := (flush1_2 t).mp hf
  have h0 : ¬t.val % 8 = 0 := by omega
  have hN : cfg1.N = 64 := N_1
  have ht : t.val < 64 := by have := t.isLt; omega
  obtain ⟨b00, b01, b02, b10, b11, b12, b20, b21⟩ := idx1_facts t
  show (cfg1.win 2).cut (grid1.coords t) ((dat1 (VV3 m ρ) c).after 2 t) = _
  rw [after1_2, out_last_eq (VV3 m ρ) c t h0 h1]
  funext y
  obtain ⟨r, d, rfl⟩ : ∃ (r : Fin 8) (d : Fin 1024), y = ix2 r d := ⟨y 0, y 1, eq_ix2 y⟩
  have hrow : t.val / 8 * 8 + r.val < 64 := by omega
  have he : ((cfg1.win 2).blk t).view.emb (ix2 r d) = ix2 (⟨t.val / 8 * 8 + r.val, hrow⟩ : Fin 64) d := by
    funext a; apply Fin.ext
    match a with
    | ⟨0, _⟩ => show win1_2.index t (0 : Fin 2) * 8 + 1 * r.val = t.val / 8 * 8 + r.val; rw [b20]; omega
    | ⟨1, _⟩ => show win1_2.index t (1 : Fin 2) * 1024 + 1 * d.val = d.val; rw [b21]; omega
  show (outsAt1 (VV3 m ρ) c t.val t.isLt).2 (ix2 r d) = Cref m c (((cfg1.win 2).blk t).view.emb (ix2 r d))
  rw [he, acc_eq (VV3 m ρ) c t.val t rfl r d, h1]
  show ∑ k ∈ Finset.range 1024, term (VV3 m ρ c main_arg0) (VV3 m ρ c main_v19) (⟨t.val / 8 * 8 + r.val, hrow⟩ : Fin 64).val d.val k = _
  rw [row_sum, VV3_arg0 m ρ c, VV3_v19_ref m ρ c]
  refine Eq.trans ?_ (Cert.ReferenceIdeal.Attn.context_at _ _ _ _ _ _ _ _ (⟨t.val / 8 * 8 + r.val, hrow⟩ : Fin 64) d).symm
  rw [Ideal.ofBits_zero_f32, zero_add]
  exact Finset.sum_congr rfl fun k _ => mul_comm _ _

theorem mem_blk1 (t : Fin cfg1.N) (i : S64x1024.Idx) :
    i ∈ ((cfg1.win 2).blk t).view.set ↔ ∀ a : Fin 2, win1_2.index t a * S8x1024.size a ≤ (i a).val ∧ (i a).val < win1_2.index t a * S8x1024.size a + S8x1024.size a := by
  show i ∈ ((View.whole main_v20).slice (win1_2.rect t)).set ↔ _
  rw [View.set_slice_whole, Rect.mem_set_unit]
  exact Iff.rfl

/-- THE CONTEXT ARRAY after the second launch is the reference's. -/
theorem context_final (c : Dev nD) : (dat1 (VV3 m ρ) c).arrAt 2 cfg1.N = Cref m c :=
  (dat1 (VV3 m ρ) c).arrAt_eq_of_cover 2 (Cref m c) (fun t hf => flushed1_eq m ρ c t hf) fun i => by
    have h0 : (i 0).val < 64 := (i 0).isLt
    have h1 : (i 1).val < 1024 := (i 1).isLt
    have hN : cfg1.N = 64 := N_1
    let t : Fin cfg1.N := ⟨(i 0).val / 8 * 8 + 7, by omega⟩
    have ht : t.val = (i 0).val / 8 * 8 + 7 := rfl
    obtain ⟨b00, b01, b02, b10, b11, b12, b20, b21⟩ := idx1_facts t
    refine ⟨t, (flush1_2 t).mpr (by rw [ht]; omega), ?_⟩
    rw [mem_blk1]
    intro a
    match a with
    | ⟨0, _⟩ => show win1_2.index t (0 : Fin 2) * 8 ≤ (i 0).val ∧ (i 0).val < win1_2.index t (0 : Fin 2) * 8 + 8; rw [b20, ht]; omega
    | ⟨1, _⟩ => show win1_2.index t (1 : Fin 2) * 1024 ≤ (i 1).val ∧ (i 1).val < win1_2.index t (1 : Fin 2) * 1024 + 1024; rw [b21]; omega

/-- The two results, read off the last boundary: the context, -/
theorem W4_v20 (c : Dev nD) : W4 m ρ c (Proc.devRef .tc main_v20) = Cref m c :=
  (W4_arr m ρ c 2).trans (context_final m ρ c)

/-- and the attention weights (an input of the second launch, so what the softmax left). -/
theorem W4_v19 (c : Dev nD) : W4 m ρ c (Proc.devRef .tc main_v19)
    = Cert.ReferenceIdeal.Read.val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  ((W4_arr m ρ c 1).trans (((dat1 (VV3 m ρ) c).arrAt_in 1 rfl _).trans (A_eq1 (VV3 m ρ) c 1))).trans (VV3_v19_ref m ρ c)

/-- THE RUN, READ: both results at the reference's stages, the arguments unchanged. -/
theorem run_values : θ_run defs (onTc (τ := τ) (main (F := Ideal))) ⟨m, fun _ => 0, ρ⟩ (fun r => ∀ c : Dev nD,
      r.2.mem ((c.tc : Thread nD τ).loc main_v20) = Cref m c
      ∧ r.2.mem ((c.tc : Thread nD τ).loc main_v19) = Cert.ReferenceIdeal.Read.val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c _ (mem_uc main_v20 (by decide))).trans (W4_v20 m ρ c),
    (h c _ (mem_uc main_v19 (by decide))).trans (W4_v19 m ρ c),
    (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c)⟩) (run_all m ρ)

end Cert.KernelIdeal.Attn

end
-- ==== Proof.lean ====
/-
  Additive attention: a kernel in two launches against its plain reference, equal on the extended reals.

  Both programs compute, for features x [64, 1024, 1024] and a hidden state [64, 1024]:
    logits (b, l)  = (∑ u, tanh ((∑ d, x (b, l, d) · W1 (d, u)) + b1 (u) + h (b, u)) · V (u, 0)) + bV,
                     h = hidden · W2 + b2;
    weights        = softmax of the logits over the 1024 positions l;
    context (b, d) = ∑ l, weights (b, l) · x (b, l, d).
  The kernel computes the logits block by block (8 rows by 128 positions per grid point, the two products on the
  matrix unit in a narrower format, which changes nothing on extended reals), lets the host take the softmax with the
  very operations the reference uses, and accumulates the context over the eight position tiles of a row block in a
  buffer of its own, zeroed at the first tile and copied out at the last.

  What is proved. Each launch is run point by point: the first leaves in its output block a named function of its six
  input blocks; the second keeps "the running sum holds the first tiles' terms" between points. The program is four
  stretches — host, launch, host, launch — and at the end every surviving buffer holds what this fold says. Read at
  the arguments, that is the frame claim, at any float instance. Read at the two results at the ideal instance: the
  logits block of point t is the reference's logits at rows 8 (t/8) + r and positions 128 (t%8) + j, so the logits
  array is the reference's; the softmax is one function applied to equal arrays; and by induction over the points the
  running sum after the last tile is all 1024 terms of the row, the reference's sum with the factors commuted and its
  zero start dropped. No finiteness is used: only commutativity of the product and regrouping of sums.
-/
import proofs.«118650_j25967372271699_1_alg».proof.Defs
import proofs.«118650_j25967372271699_1_alg».proof.Proof.Gen.Kernel
import proofs.«118650_j25967372271699_1_alg».proof.Proof.Gen.KernelIdeal
import proofs.«118650_j25967372271699_1_alg».proof.Proof.Gen.ReferenceIdeal
import proofs.«118650_j25967372271699_1_alg».proof.Proof.Gen.ReferenceIdeal.Run
import proofs.«118650_j25967372271699_1_alg».proof.Proof.Gen.ReferenceIdeal.Read
import proofs.«118650_j25967372271699_1_alg».proof.Proof.Gen.Pre_finite_inputs
import proofs.«118650_j25967372271699_1_alg».proof.Proof.BitsRun
import proofs.«118650_j25967372271699_1_alg».proof.Proof.IdealContextArray
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Attn.frame m ρ

/-- So does the idealized kernel. -/
theorem frame_ki : Cert.frame_KernelIdeal := fun m ρ _ => Cert.KernelIdeal.Attn.frame m ρ

/-- The reference is host operations only: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- At the ideal values the kernel's two results are the reference's stages of the same arguments. -/
theorem algebraic : Cert.algebraic_KernelIdeal_ReferenceIdeal := by
  intro m ρ m' ρ' _ hagree
  refine ⟨fun c => Cert.KernelIdeal.Attn.Cref m c,
    fun c => Cert.ReferenceIdeal.Read.val_main_v26 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Attn.run_values m ρ, ?_⟩
  refine (θ_run Cert.ReferenceIdeal.defs _ _).mono (fun _ h c => ?_) (Cert.ReferenceIdeal.Value.run (F := Ideal) m' ρ')
  obtain ⟨a0, a1, a2, a3, a4, a5, a6, a7⟩ := hagree c
  refine ⟨(h c).1.trans ?_, (h c).2.1.trans ?_, (h c).2.2⟩
  · rw [Cert.ReferenceIdeal.Read.val_main_v29_eq, a0, a1, a2, a3, a4, a5, a6, a7]
  · rw [Cert.ReferenceIdeal.Read.val_main_v26_eq, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
